-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128x128 : Shape := ⟨4, ![4, 512, 128, 128]⟩
abbrev S19x5x512 : Shape := ⟨3, ![19, 5, 512]⟩
abbrev S512 : Shape := ⟨1, ![512]⟩
abbrev S19 : Shape := ⟨1, ![19]⟩
abbrev S_ : Shape := ⟨0, ![]⟩

class Facts : Prop where
  bcast_S_S4x512x128x128 : S_.BroadcastsInDim S4x512x128x128 (![] : Fin 0 → Fin S4x512x128x128.rank)
  reducesTo_S4x512x128x128_S_d0_1_2_3 : S4x512x128x128.ReducesTo [0, 1, 2, 3] S_
  h_S_ : 0 < S_.numel
  bcast_S_S19x5x512 : S_.BroadcastsInDim S19x5x512 (![] : Fin 0 → Fin S19x5x512.rank)
  reducesTo_S19x5x512_S_d0_1_2 : S19x5x512.ReducesTo [0, 1, 2] S_
  bcast_S_S512 : S_.BroadcastsInDim S512 (![] : Fin 0 → Fin S512.rank)
  reducesTo_S512_S_d0 : S512.ReducesTo [0] S_
  bcast_S_S19 : S_.BroadcastsInDim S19 (![] : Fin 0 → Fin S19.rank)
  reducesTo_S19_S_d0 : S19.ReducesTo [0] S_

variable [Facts]

def fn_part1 {F : FTy → Type} [FloatOps F] (main_arg4 : FVec F S512 .f32) (main_arg5 : FVec F S19 .f32) (main_arg6 : FVec F S19 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S19 .f32 := Host.absf main_arg5
  let main_cst_8 : FVec F S_ .f32 := constant S_ .f32 0x7F800000#32
  let main_v25 : FVec F S19 .f32 := broadcastInDim S19 ![] bcast_S_S19 main_cst_8
  let main_v26 : IVec S19 1 := cmpf .olt main_v24 main_v25
  let main_c_9 : IVec S_ 1 := constantI S_ 1 1#1
  let main_v27 : IVec S_ 1 := (fun x v => Host.reduce IntOp.andi x v reducesTo_S19_S_d0 h_S_) main_v26 main_c_9
  let main_v28 : IVec S_ 1 := andi main_v23 main_v27
  let main_v29 : FVec F S19 .f32 := Host.absf main_arg6
  let main_cst_10 : FVec F S_ .f32 := constant S_ .f32 0x7F800000#32
  let main_v30 : FVec F S19 .f32 := broadcastInDim S19 ![] bcast_S_S19 main_cst_10
  let main_v31 : IVec S19 1 := cmpf .olt main_v29 main_v30
  let main_c_11 : IVec S_ 1 := constantI S_ 1 1#1
  let main_v32 : IVec S_ 1 := (fun x v => Host.reduce IntOp.andi x v reducesTo_S19_S_d0 h_S_) main_v31 main_c_11
  let main_v33 : IVec S_ 1 := andi main_v28 main_v32
  main_v33

def fn {F : FTy → Type} [FloatOps F] (main_arg0 : FVec F S4x512x128x128 .f32) (main_arg1 : FVec F S19x5x512 .f32) (main_arg2 : FVec F S19x5x512 .f32) (main_arg3 : FVec F S512 .f32) (main_arg4 : FVec F S512 .f32) (main_arg5 : FVec F S19 .f32) (main_arg6 : FVec F S19 .f32) : IVec S_ 1 :=
  let main_v0 : FVec F S4x512x128x128 .f32 := Host.absf main_arg0
  let main_cst : FVec F S_ .f32 := constant S_ .f32 0x7F800000#32
  let main_v1 : FVec F S4x512x128x128 .f32 := broadcastInDim S4x512x128x128 ![] bcast_S_S4x512x128x128 main_cst
  let main_v2 : IVec S4x512x128x128 1 := cmpf .olt main_v0 main_v1
  let main_c : IVec S_ 1 := constantI S_ 1 1#1
  let main_v3 : IVec S_ 1 := (fun x v => Host.reduce IntOp.andi x v reducesTo_S4x512x128x128_S_d0_1_2_3 h_S_) main_v2 main_c
  let main_v4 : FVec F S19x5x512 .f32 := Host.absf main_arg1
  let main_cst_0 : FVec F S_ .f32 := constant S_ .f32 0x7F800000#32
  let main_v5 : FVec F S19x5x512 .f32 := broadcastInDim S19x5x512 ![] bcast_S_S19x5x512 main_cst_0
  let main_v6 : IVec S19x5x512 1 := cmpf .olt main_v4 main_v5
  let main_c_1 : IVec S_ 1 := constantI S_ 1 1#1
  let main_v7 : IVec S_ 1 := (fun x v => Host.reduce IntOp.andi x v reducesTo_S19x5x512_S_d0_1_2 h_S_) main_v6 main_c_1
  let main_v8 : IVec S_ 1 := andi main_v3 main_v7
  let main_v9 : FVec F S19x5x512 .f32 := Host.absf main_arg2
  let main_cst_2 : FVec F S_ .f32 := constant S_ .f32 0x7F800000#32
  let main_v10 : FVec F S19x5x512 .f32 := broadcastInDim S19x5x512 ![] bcast_S_S19x5x512 main_cst_2
  let main_v11 : IVec S19x5x512 1 := cmpf .olt main_v9 main_v10
  let main_c_3 : IVec S_ 1 := constantI S_ 1 1#1
  let main_v12 : IVec S_ 1 := (fun x v => Host.reduce IntOp.andi x v reducesTo_S19x5x512_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S4x512x128x128 : Shape := ⟨4, ![4, 512, 128, 128]⟩
abbrev S19x5x512 : Shape := ⟨3, ![19, 5, 512]⟩
abbrev S512 : Shape := ⟨1, ![512]⟩
abbrev S19 : Shape := ⟨1, ![19]⟩
abbrev S_ : Shape := ⟨0, ![]⟩
abbrev S19x5 : Shape := ⟨2, ![19, 5]⟩
abbrev S19x5x1 : Shape := ⟨3, ![19, 5, 1]⟩
abbrev S5x19x512 : Shape := ⟨3, ![5, 19, 512]⟩
abbrev S95x512 : Shape := ⟨2, ![95, 512]⟩
abbrev S512x95 : Shape := ⟨2, ![512, 95]⟩
abbrev S95 : Shape := ⟨1, ![95]⟩
abbrev S1x95 : Shape := ⟨2, ![1, 95]⟩
abbrev S512x1x1 : Shape := ⟨3, ![512, 1, 1]⟩
abbrev S1x19 : Shape := ⟨2, ![1, 19]⟩
abbrev S4x19x128x128 : Shape := ⟨4, ![4, 19, 128, 128]⟩
abbrev S1x512x16x128 : Shape := ⟨4, ![1, 512, 16, 128]⟩
abbrev S1x19x16x128 : Shape := ⟨4, ![1, 19, 16, 128]⟩
abbrev S512x16x128 : Shape := ⟨3, ![512, 16, 128]⟩
abbrev S16x128 : Shape := ⟨2, ![16, 128]⟩
abbrev S1x16x128 : Shape := ⟨3, ![1, 16, 128]⟩
abbrev S16x128x512 : Shape := ⟨3, ![16, 128, 512]⟩
abbrev S2048x512 : Shape := ⟨2, ![2048, 512]⟩
abbrev S2048x95 : Shape := ⟨2, ![2048, 95]⟩
abbrev S2048x19 : Shape := ⟨2, ![2048, 19]⟩
abbrev S2048 : Shape := ⟨1, ![2048]⟩
abbrev S2048x1 : Shape := ⟨2, ![2048, 1]⟩
abbrev S16x128x19 : Shape := ⟨3, ![16, 128, 19]⟩
abbrev S19x16x128 : Shape := ⟨3, ![19, 16, 128]⟩

abbrev nBuf : Space → Nat
  | .hbm => 44
  | .vmem => 12
  | .smem => 0
  | _ => 0

abbrev bufTy : (tb : Table) → Fin (tcTables nBuf tb) → BufTy
  | .hbm, ⟨0, _⟩ => ⟨S4x512x128x128, .f32⟩
  | .hbm, ⟨1, _⟩ => ⟨S19x5x512, .f32⟩
  | .hbm, ⟨2, _⟩ => ⟨S19x5x512, .f32⟩
  | .hbm, ⟨3, _⟩ => ⟨S512, .f32⟩
  | .hbm, ⟨4, _⟩ => ⟨S512, .f32⟩
  | .hbm, ⟨5, _⟩ => ⟨S19, .f32⟩
  | .hbm, ⟨6, _⟩ => ⟨S19, .f32⟩
  | .hbm, ⟨7, _⟩ => ⟨S19x5x512, .f32⟩
  | .hbm, ⟨8, _⟩ => ⟨S_, .f32⟩
  | .hbm, ⟨9, _⟩ => ⟨S19x5, .f32⟩
  | .hbm, ⟨10, _⟩ => ⟨S19x5x1, .f32⟩
  | .hbm, ⟨11, _⟩ => ⟨S19x5x1, .f32⟩
  | .hbm, ⟨12, _⟩ => ⟨S_, .f32⟩
  | .hbm, ⟨13, _⟩ => ⟨S19x5x1, .f32⟩
  | .hbm, ⟨14, _⟩ => ⟨S19x5x1, .f32⟩
  | .hbm, ⟨15, _⟩ => ⟨S19x5x512, .f32⟩
  | .hbm, ⟨16, _⟩ => ⟨S19x5x512, .f32⟩
  | .hbm, ⟨17, _⟩ => ⟨S19x5x512, .f32⟩
  | .hbm, ⟨18, _⟩ => ⟨S_, .f32⟩
  | .hbm, ⟨19, _⟩ => ⟨S19x5x512, .f32⟩
  | .hbm, ⟨20, _⟩ => ⟨S19x5x512, .f32⟩
  | .hbm, ⟨21, _⟩ => ⟨S5x19x512, .f32⟩
  | .hbm, ⟨22, _⟩ => ⟨S95x512, .f32⟩
  | .hbm, ⟨23, _⟩ => ⟨S5x19x512, .f32⟩
  | .hbm, ⟨24, _⟩ => ⟨S95x512, .f32⟩
  | .hbm, ⟨25, _⟩ => ⟨S5x19x512, .f32⟩
  | .hbm, ⟨26, _⟩ => ⟨S95x512, .f32⟩
  | .hbm, ⟨27, _⟩ => ⟨S512x95, .f32⟩
  | .hbm, ⟨28, _⟩ => ⟨S95x512, .f32⟩
  | .hbm, ⟨29, _⟩ => ⟨S512x95, .f32⟩
  | .hbm, ⟨30, _⟩ => ⟨S95x512, .f32⟩
  | .hbm, ⟨31, _⟩ => ⟨S95x512, .f32⟩
  | .hbm, ⟨32, _⟩ => ⟨S_, .f32⟩
  | .hbm, ⟨33, _⟩ => ⟨S95, .f32⟩
  | .hbm, ⟨34, _⟩ => ⟨S1x95, .f32⟩
  | .hbm, ⟨35, _⟩ => ⟨S95x512, .f32⟩
  | .hbm, ⟨36, _⟩ => ⟨S_, .f32⟩
  | .hbm, ⟨37, _⟩ => ⟨S95, .f32⟩
  | .hbm, ⟨38, _⟩ => ⟨S1x95, .f32⟩
  | .hbm, ⟨39, _⟩ => ⟨S512x1x1, .f32⟩
  | .hbm, ⟨40, _⟩ => ⟨S512x1x1, .f32⟩
  | .hbm, ⟨41, _⟩ => ⟨S1x19, .f32⟩
  | .hbm, ⟨42, _⟩ => ⟨S1x19, .f32⟩
  | .hbm, ⟨43, _⟩ => ⟨S4x19x128x128, .f32⟩
  | .local _ .vmem, ⟨0, _⟩ => ⟨S1x512x16x128, .f32⟩
  | .local _ .vmem, ⟨1, _⟩ => ⟨S1x512x16x128, .f32⟩
  | .local _ .vmem, ⟨2, _⟩ => ⟨S512x95, .f32⟩
  | .local _ .vmem, ⟨3, _⟩ => ⟨S512x95, .f32⟩
  | .local _ .vmem, ⟨4, _⟩ => ⟨S1x95, .f32⟩
  | .local _ .vmem, ⟨5, _⟩ => ⟨S1x95, .f32⟩
  | .local _ .vmem, ⟨6, _⟩ => ⟨S512x1x1, .f32⟩
  | .local _ .vmem, ⟨7, _⟩ => ⟨S512x1x1, .f32⟩
  | .local _ .vmem, ⟨8, _⟩ => ⟨S1x19, .f32⟩
  | .local _ .vmem, ⟨9, _⟩ => ⟨S1x19, .f32⟩
  | .local _ .vmem, ⟨10, _⟩ => ⟨S1x19x16x128, .f32⟩
  | .local _ .vmem, ⟨11, _⟩ => ⟨S1x19x16x128, .f32⟩
  | _, _ => ⟨S4x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x95 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x95 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x95 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x95 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x19 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x19 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x19x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  reducesTo_S19x5x512_S19x5_d2 : S19x5x512.ReducesTo [2] S19x5
  h_S_ : 0 < S_.numel
  bcast_S19x5_S19x5x1_0_1 : S19x5.BroadcastsInDim S19x5x1 (![0, 1] : Fin 2 → Fin S19x5x1.rank)
  bcast_S_S19x5x1 : S_.BroadcastsInDim S19x5x1 (![] : Fin 0 → Fin S19x5x1.rank)
  bcast_S19x5x1_S19x5x512_0_1_2 : S19x5x1.BroadcastsInDim S19x5x512 (![0, 1, 2] : Fin 3 → Fin S19x5x512.rank)
  bcast_S_S19x5x512 : S_.BroadcastsInDim S19x5x512 (![] : Fin 0 → Fin S19x5x512.rank)
  transposes_S19x5x512_S5x19x512_1_0_2 : S19x5x512.Transposes [1, 0, 2] S5x19x512
  shapeCasts_S5x19x512_S95x512 : S5x19x512.ShapeCasts S95x512
  transposes_S95x512_S512x95_1_0 : S95x512.Transposes [1, 0] S512x95
  reducesTo_S95x512_S95_d1 : S95x512.ReducesTo [1] S95
  bcast_S95_S1x95_1 : S95.BroadcastsInDim S1x95 (![1] : Fin 1 → Fin S1x95.rank)
  shapeCasts_S512_S512x1x1 : S512.ShapeCasts S512x1x1
  shapeCasts_S19_S1x19 : S19.ShapeCasts S1x19
  inb_S1x512x16x128_S1x512x16x128_0_0_0_0 : ∀ a, (![0, 0, 0, 0] : Fin 4 → Nat) a + S1x512x16x128.size a ≤ S1x512x16x128.size a
  h_S1x512x16x128 : 0 < S1x512x16x128.numel
  shapeCasts_S1x512x16x128_S512x16x128 : S1x512x16x128.ShapeCasts S512x16x128
  reduces_S512x16x128_S16x128 : S512x16x128.Reduces [0] S16x128
  shapeCasts_S16x128_S1x16x128 : S16x128.ShapeCasts S1x16x128
  broadcasts_S1x16x128_S512x16x128 : S1x16x128.Broadcasts S512x16x128
  inb_S512x1x1_S512x1x1_0_0_0 : ∀ a, (![0, 0, 0] : Fin 3 → Nat) a + S512x1x1.size a ≤ S512x1x1.size a
  h_S512x1x1 : 0 < S512x1x1.numel
  shapeCasts_S512x1x1_S512x1x1 : S512x1x1.ShapeCasts S512x1x1
  broadcasts_S512x1x1_S512x16x128 : S512x1x1.Broadcasts S512x16x128
  transposes_S512x16x128_p1_2_0_S16x128x512 : S512x16x128.Transposes [1, 2, 0] S16x128x512
  shapeCasts_S16x128x512_S2048x512 : S16x128x512.ShapeCasts S2048x512
  bitsLt_bf16_f32 : FTy.bits .bf16 < FTy.bits .f32
  inb_S512x95_S512x95_0_0 : ∀ a, (![0, 0] : Fin 2 → Nat) a + S512x95.size a ≤ S512x95.size a
  h_S512x95 : 0 < S512x95.numel
  shapeCasts_S512x95_S512x95 : S512x95.ShapeCasts S512x95
  inb_S1x95_S1x95_0_0 : ∀ a, (![0, 0] : Fin 2 → Nat) a + S1x95.size a ≤ S1x95.size a
  h_S1x95 : 0 < S1x95.numel
  shapeCasts_S1x95_S1x95 : S1x95.ShapeCasts S1x95
  broadcasts_S1x95_S2048x95 : S1x95.Broadcasts S2048x95
  slices_S2048x95_o0_0_S2048x19 : S2048x95.Slices ![0, 0] S2048x19
  slices_S2048x95_o0_19_S2048x19 : S2048x95.Slices ![0, 19] S2048x19
  slices_S2048x95_o0_38_S2048x19 : S2048x95.Slices ![0, 38] S2048x19
  slices_S2048x95_o0_57_S2048x19 : S2048x95.Slices ![0, 57] S2048x19
  slices_S2048x95_o0_76_S2048x19 : S2048x95.Slices ![0, 76] S2048x19
  reduces_S2048x19_S2048 : S2048x19.Reduces [1] S2048
  shapeCasts_S2048_S2048x1 : S2048.ShapeCasts S2048x1
  broadcasts_S2048x1_S2048x19 : S2048x1.Broadcasts S2048x19
  inb_S1x19_S1x19_0_0 : ∀ a, (![0, 0] : Fin 2 → Nat) a + S1x19.size a ≤ S1x19.size a
  h_S1x19 : 0 < S1x19.numel
  shapeCasts_S1x19_S1x19 : S1x19.ShapeCasts S1x19
  broadcasts_S1x19_S2048x19 : S1x19.Broadcasts S2048x19
  shapeCasts_S2048x19_S16x128x19 : S2048x19.ShapeCasts S16x128x19
  transposes_S16x128x19_p2_0_1_S19x16x128 : S16x128x19.Transposes [2, 0, 1] S19x16x128
  inb_S1x19x16x128_S1x19x16x128_0_0_0_0 : ∀ a, (![0, 0, 0, 0] : Fin 4 → Nat) a + S1x19x16x128.size a ≤ S1x19x16x128.size a
  h_S1x19x16x128 : 0 < S1x19x16x128.numel
  shapeCasts_S1x19x16x128_S19x16x128 : S1x19x16x128.ShapeCasts S19x16x128
  shapeCasts_S19x16x128_S1x19x16x128 : S19x16x128.ShapeCasts S1x19x16x128
  dot_S2048x512_S512x95_S2048x95_1_0_0_1_n_n_wf : DotDims.WF S2048x512 S512x95 S2048x95 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x16x128.size a ≤ S4x512x128x128.size a
  hwx0_0 : ∀ i : grid0.Coords, EltTy.bits .f32 = 32 ∨ (Rect.block (s := S4x512x128x128) S1x512x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x95.size a ≤ S512x95.size a
  hwx0_1 : ∀ i : grid0.Coords, EltTy.bits .f32 = 32 ∨ (Rect.block (s := S512x95) S512x95.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x95.size a ≤ S512x95.size a
  hwx0_2 : ∀ i : grid0.Coords, EltTy.bits .f32 = 32 ∨ (Rect.block (s := S512x95) S512x95.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x95.size a ≤ S1x95.size a
  hwx0_3 : ∀ i : grid0.Coords, EltTy.bits .f32 = 32 ∨ (Rect.block (s := S1x95) S1x95.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x95.size a ≤ S1x95.size a
  hwx0_4 : ∀ i : grid0.Coords, EltTy.bits .f32 = 32 ∨ (Rect.block (s := S1x95) S1x95.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1x1.size a ≤ S512x1x1.size a
  hwx0_5 : ∀ i : grid0.Coords, EltTy.bits .f32 = 32 ∨ (Rect.block (s := S512x1x1) S512x1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1x1.size a ≤ S512x1x1.size a
  hwx0_6 : ∀ i : grid0.Coords, EltTy.bits .f32 = 32 ∨ (Rect.block (s := S512x1x1) S512x1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x19.size a ≤ S1x19.size a
  hwx0_7 : ∀ i : grid0.Coords, EltTy.bits .f32 = 32 ∨ (Rect.block (s := S1x19) S1x19.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x19.size a ≤ S1x19.size a
  hwx0_8 : ∀ i : grid0.Coords, EltTy.bits .f32 = 32 ∨ (Rect.block (s := S1x19) S1x19.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x19x16x128.size a ≤ S4x19x128x128.size a
  hwx0_9 : ∀ i : grid0.Coords, EltTy.bits .f32 = 32 ∨ (Rect.block (s := S4x19x128x128) S1x19x16x128.size (cc0_transform_9 i) (hinb0_9 i)).WholeWords (EltTy.packing .f32)

variable [Facts₀]

def dot_S2048x512_S512x95_S2048x95_1_0_0_1_n_n : DotDims S2048x512 S512x95 S2048x95 where
  lhsContracting := [1]
  rhsContracting := [0]
  lhsNonContracting := [0]
  rhsNonContracting := [1]
  lhsBatch := []
  rhsBatch := []
  wf := dot_S2048x512_S512x95_S2048x95_1_0_0_1_n_n_wf

abbrev win0_0 : Pipeline.Window sig grid0 :=
  Pipeline.Window.ofSpec (Memref.whole main_arg0) S1x512x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x95.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S512x95.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x95.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x95.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S512x1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x19.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x19.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x19x16x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x512x128x128 : Shape := ⟨4, ![4, 512, 128, 128]⟩
abbrev S19x5x512 : Shape := ⟨3, ![19, 5, 512]⟩
abbrev S512 : Shape := ⟨1, ![512]⟩
abbrev S19 : Shape := ⟨1, ![19]⟩
abbrev S4x128x128x512 : Shape := ⟨4, ![4, 128, 128, 512]⟩
abbrev S65536x512 : Shape := ⟨2, ![65536, 512]⟩
abbrev S_ : Shape := ⟨0, ![]⟩
abbrev S65536 : Shape := ⟨1, ![65536]⟩
abbrev S65536x1 : Shape := ⟨2, ![65536, 1]⟩
abbrev S1x512 : Shape := ⟨2, ![1, 512]⟩
abbrev S19x5 : Shape := ⟨2, ![19, 5]⟩
abbrev S19x5x1 : Shape := ⟨3, ![19, 5, 1]⟩
abbrev S95x512 : Shape := ⟨2, ![95, 512]⟩
abbrev S512x95 : Shape := ⟨2, ![512, 95]⟩
abbrev S65536x95 : Shape := ⟨2, ![65536, 95]⟩
abbrev S95 : Shape := ⟨1, ![95]⟩
abbrev S1x95 : Shape := ⟨2, ![1, 95]⟩
abbrev S65536x19x5 : Shape := ⟨3, ![65536, 19, 5]⟩
abbrev S65536x19 : Shape := ⟨2, ![65536, 19]⟩
abbrev S1x19 : Shape := ⟨2, ![1, 19]⟩
abbrev S4x128x128x19 : Shape := ⟨4, ![4, 128, 128, 19]⟩
abbrev S4x19x128x128 : Shape := ⟨4, ![4, 19, 128, 128]⟩

abbrev nBuf : Space → Nat
  | .hbm => 131
  | .vmem => 0
  | .smem => 0
  | _ => 0

abbrev hbmTy0_0 (i : Nat) : BufTy := match i % 128 with
  | 0 => ⟨S4x512x128x128, .f32⟩
  | 1 => ⟨S19x5x512, .f32⟩
  | 2 => ⟨S19x5x512, .f32⟩
  | 3 => ⟨S512, .f32⟩
  | 4 => ⟨S512, .f32⟩
  | 5 => ⟨S19, .f32⟩
  | 6 => ⟨S19, .f32⟩
  | 7 => ⟨S4x128x128x512, .f32⟩
  | 8 => ⟨S65536x512, .f32⟩
  | 9 => ⟨S_, .f32⟩
  | 10 => ⟨S65536, .f32⟩
  | 11 => ⟨S65536x1, .f32⟩
  | 12 => ⟨S_, .f32⟩
  | 13 => ⟨S65536x1, .f32⟩
  | 14 => ⟨S65536x1, .f32⟩
  | 15 => ⟨S65536x512, .f32⟩
  | 16 => ⟨S65536x512, .f32⟩
  | 17 => ⟨S65536x512, .f32⟩
  | 18 => ⟨S_, .f32⟩
  | 19 => ⟨S65536, .f32⟩
  | 20 => ⟨S65536x1, .f32⟩
  | 21 => ⟨S_, .f32⟩
  | 22 => ⟨S65536x1, .f32⟩
  | 23 => ⟨S65536x1, .f32⟩
  | 24 => ⟨S65536x512, .f32⟩
  | 25 => ⟨S65536x512, .f32⟩
  | 26 => ⟨S_, .f32⟩
  | 27 => ⟨S65536x1, .f32⟩
  | 28 => ⟨S65536x1, .f32⟩
  | 29 => ⟨S65536x1, .f32⟩
  | 30 => ⟨S65536x512, .f32⟩
  | 31 => ⟨S65536x512, .f32⟩
  | 32 => ⟨S1x512, .f32⟩
  | 33 => ⟨S65536x512, .f32⟩
  | 34 => ⟨S65536x512, .f32⟩
  | 35 => ⟨S1x512, .f32⟩
  | 36 => ⟨S65536x512, .f32⟩
  | 37 => ⟨S65536x512, .f32⟩
  | 38 => ⟨S65536x512, .f32⟩
  | 39 => ⟨S_, .f32⟩
  | 40 => ⟨S65536, .f32⟩
  | 41 => ⟨S65536x1, .f32⟩
  | 42 => ⟨S65536x1, .f32⟩
  | 43 => ⟨S_, .f32⟩
  | 44 => ⟨S65536x1, .f32⟩
  | 45 => ⟨S65536x1, .f32⟩
  | 46 => ⟨S65536x512, .f32⟩
  | 47 => ⟨S65536x512, .f32⟩
  | 48 => ⟨S19x5x512, .f32⟩
  | 49 => ⟨S_, .f32⟩
  | 50 => ⟨S19x5, .f32⟩
  | 51 => ⟨S19x5x1, .f32⟩
  | 52 => ⟨S19x5x1, .f32⟩
  | 53 => ⟨S_, .f32⟩
  | 54 => ⟨S19x5x1, .f32⟩
  | 55 => ⟨S19x5x1, .f32⟩
  | 56 => ⟨S19x5x512, .f32⟩
  | 57 => ⟨S19x5x512, .f32⟩
  | 58 => ⟨S95x512, .f32⟩
  | 59 => ⟨S95x512, .f32⟩
  | 60 => ⟨S95x512, .f32⟩
  | 61 => ⟨S_, .f32⟩
  | 62 => ⟨S95x512, .f32⟩
  | 63 => ⟨S95x512, .f32⟩
  | 64 => ⟨S65536x512, .f32⟩
  | 65 => ⟨S512x95, .f32⟩
  | 66 => ⟨S65536x95, .f32⟩
  | 67 => ⟨S95x512, .f32⟩
  | 68 => ⟨S512x95, .f32⟩
  | 69 => ⟨S65536x95, .f32⟩
  | 70 => ⟨S95x512, .f32⟩
  | 71 => ⟨S95x512, .f32⟩
  | 72 => ⟨S_, .f32⟩
  | 73 => ⟨S95, .f32⟩
  | 74 => ⟨S_, .f32⟩
  | 75 => ⟨S65536x95, .f32⟩
  | 76 => ⟨S65536x95, .f32⟩
  | 77 => ⟨S65536x95, .f32⟩
  | 78 => ⟨S1x95, .f32⟩
  | 79 => ⟨S65536x95, .f32⟩
  | 80 => ⟨S65536x95, .f32⟩
  | 81 => ⟨S95x512, .f32⟩
  | 82 => ⟨S_, .f32⟩
  | 83 => ⟨S95, .f32⟩
  | 84 => ⟨S_, .f32⟩
  | 85 => ⟨S_, .f32⟩
  | 86 => ⟨S_, .f32⟩
  | 87 => ⟨S_, .f32⟩
  | 88 => ⟨S_, .f32⟩
  | 89 => ⟨S65536x95, .f32⟩
  | 90 => ⟨S65536x95, .f32⟩
  | 91 => ⟨S1x95, .f32⟩
  | 92 => ⟨S65536x95, .f32⟩
  | 93 => ⟨S65536x95, .f32⟩
  | 94 => ⟨S_, .f32⟩
  | 95 => ⟨S65536x95, .f32⟩
  | 96 => ⟨S65536x95, .f32⟩
  | 97 => ⟨S65536x19x5, .f32⟩
  | 98 => ⟨S_, .f32⟩
  | 99 => ⟨S65536x19, .f32⟩
  | 100 => ⟨S_, .f32⟩
  | 101 => ⟨S65536, .f32⟩
  | 102 => ⟨S65536x1, .f32⟩
  | 103 => ⟨S_, .f32⟩
  | 104 => ⟨S65536x1, .f32⟩
  | 105 => ⟨S65536x1, .f32⟩
  | 106 => ⟨S65536x19, .f32⟩
  | 107 => ⟨S65536x19, .f32⟩
  | 108 => ⟨S65536x19, .f32⟩
  | 109 => ⟨S_, .f32⟩
  | 110 => ⟨S65536, .f32⟩
  | 111 => ⟨S65536x1, .f32⟩
  | 112 => ⟨S_, .f32⟩
  | 113 => ⟨S65536x1, .f32⟩
  | 114 => ⟨S65536x1, .f32⟩
  | 115 => ⟨S65536x19, .f32⟩
  | 116 => ⟨S65536x19, .f32⟩
  | 117 => ⟨S_, .f32⟩
  | 118 => ⟨S65536x1, .f32⟩
  | 119 => ⟨S65536x1, .f32⟩
  | 120 => ⟨S65536x1, .f32⟩
  | 121 => ⟨S65536x19, .f32⟩
  | 122 => ⟨S65536x19, .f32⟩
  | 123 => ⟨S1x19, .f32⟩
  | 124 => ⟨S65536x19, .f32⟩
  | 125 => ⟨S65536x19, .f32⟩
  | 126 => ⟨S1x19, .f32⟩
  | 127 => ⟨S65536x19, .f32⟩
  | _ => ⟨S4x512x128x128, .f32⟩

abbrev hbmTy0_1 (i : Nat) : BufTy := match i % 128 with
  | 0 => ⟨S65536x19, .f32⟩
  | 1 => ⟨S4x128x128x19, .f32⟩
  | 2 => ⟨S4x19x128x128, .f32⟩
  | _ => ⟨S4x512x128x128, .f32⟩

abbrev hbmTy (i : Nat) : BufTy := match i / 128 with
  | 0 => hbmTy0_0 i
  | 1 => hbmTy0_1 i
  | _ => ⟨S4x512x128x128, .f32⟩

abbrev bufTy : (tb : Table) → Fin (tcTables nBuf tb) → BufTy
  | .hbm, ⟨i, _⟩ => hbmTy i
  | _, _ => ⟨S4x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_16 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]

class Facts₀ : Prop where
  transposes_S4x512x128x128_S4x128x128x512_0_2_3_1 : S4x512x128x128.Transposes [0, 2, 3, 1] S4x128x128x512
  shapeCasts_S4x128x128x512_S65536x512 : S4x128x128x512.ShapeCasts S65536x512
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S19x5x512_S19x5_d2 : S19x5x512.ReducesTo [2] S19x5
  bcast_S19x5_S19x5x1_0_1 : S19x5.BroadcastsInDim S19x5x1 (![0, 1] : Fin 2 → Fin S19x5x1.rank)
  bcast_S_S19x5x1 : S_.BroadcastsInDim S19x5x1 (![] : Fin 0 → Fin S19x5x1.rank)
  bcast_S19x5x1_S19x5x512_0_1_2 : S19x5x1.BroadcastsInDim S19x5x512 (![0, 1, 2] : Fin 3 → Fin S19x5x512.rank)
  shapeCasts_S19x5x512_S95x512 : S19x5x512.ShapeCasts S95x512
  bcast_S_S95x512 : S_.BroadcastsInDim S95x512 (![] : Fin 0 → Fin S95x512.rank)
  transposes_S95x512_S512x95_1_0 : S95x512.Transposes [1, 0] S512x95
  reducesTo_S95x512_S95_d1 : S95x512.ReducesTo [1] S95
  bcast_S_S65536x95 : S_.BroadcastsInDim S65536x95 (![] : Fin 0 → Fin S65536x95.rank)
  bcast_S95_S1x95_1 : S95.BroadcastsInDim S1x95 (![1] : Fin 1 → Fin S1x95.rank)
  bcast_S1x95_S65536x95_0_1 : S1x95.BroadcastsInDim S65536x95 (![0, 1] : Fin 2 → Fin S65536x95.rank)
  shapeCasts_S65536x95_S65536x19x5 : S65536x95.ShapeCasts S65536x19x5
  reducesTo_S65536x19x5_S65536x19_d2 : S65536x19x5.ReducesTo [2] S65536x19
  reducesTo_S65536x19_S65536_d1 : S65536x19.ReducesTo [1] S65536
  bcast_S65536x1_S65536x19_0_1 : S65536x1.BroadcastsInDim S65536x19 (![0, 1] : Fin 2 → Fin S65536x19.rank)
  bcast_S19_S1x19_1 : S19.BroadcastsInDim S1x19 (![1] : Fin 1 → Fin S1x19.rank)
  bcast_S1x19_S65536x19_0_1 : S1x19.BroadcastsInDim S65536x19 (![0, 1] : Fin 2 → Fin S65536x19.rank)
  shapeCasts_S65536x19_S4x128x128x19 : S65536x19.ShapeCasts S4x128x128x19
  transposes_S4x128x128x19_S4x19x128x128_0_3_1_2 : S4x128x128x19.Transposes [0, 3, 1, 2] S4x19x128x128
  dot_S65536x512_S512x95_S65536x95_1_0_0_1_n_n_wf : DotDims.WF S65536x512 S512x95 S65536x95 [1] [0] [0] [1] [] []

variable [Facts₀]

def dot_S65536x512_S512x95_S65536x95_1_0_0_1_n_n : DotDims S65536x512 S512x95 S65536x95 where
  lhsContracting := [1]
  rhsContracting := [0]
  lhsNonContracting := [0]
  rhsNonContracting := [1]
  lhsBatch := []
  rhsBatch := []
  wf := dot_S65536x512_S512x95_S65536x95_1_0_0_1_n_n_wf

class Facts : Prop extends Facts₀ where

variable [Facts]
-- ==== Proof.LibCentreShift.lean ====
/- General lemmas on the extended reals: subtracting a real constant from every entry of a finite family
   commutes with centring the family about its mean and with taking maxima. -/
import Idealize.ShloMosaic.PureOps.Ideal

noncomputable section

namespace Cert.CentreShift

open Idealize.ShloMosaic

variable {ι : Type} [Fintype ι]

/-- Subtracting the real `c` from each of the `card ι` summands lowers the sum by `card ι * c`. -/
theorem sum_sub_const (a : ι → EReal) (c : ℝ) :
    (∑ k, (a k - (c : EReal))) = (∑ k, a k) - (((Fintype.card ι : ℝ) * c : ℝ) : EReal) := by
  simp only [sub_eq_add_neg, Finset.sum_add_distrib, Finset.sum_const, Finset.card_univ]
  congr 1
  rw [← EReal.coe_neg, ← EReal.coe_nsmul, ← EReal.coe_neg]
  congr 1
  simp [nsmul_eq_mul]

/-- For a real `c`, `(x - c) - (μ + (-c)) = x - μ` at every extended real `x` and `μ`. -/
theorem sub_sub_add_neg (x μ : EReal) (c : ℝ) :
    (x - (c : EReal)) - (μ + ((-c : ℝ) : EReal)) = x - μ := by
  have h : ((-c : ℝ) : EReal) + (c : EReal) = 0 := by
    rw [← EReal.coe_add]; simp
  have h' : -((-c : ℝ) : EReal) = (c : EReal) := by
    rw [← EReal.coe_neg, neg_neg]
  rw [sub_eq_add_neg (x - (c : EReal)),
    EReal.neg_add (.inr (EReal.coe_ne_top _)) (.inr (EReal.coe_ne_bot _)),
    sub_eq_add_neg, sub_eq_add_neg, sub_eq_add_neg, ← EReal.coe_neg, h',
    add_add_add_comm, h, add_zero]

/-- Centring about the mean is invariant under subtracting a real constant from every entry: the mean over
    `N = card ι` entries drops by the same constant, whatever the entries (infinite ones included). -/
theorem centre_shift (N : ℝ) (hN : 0 < N) (hcard : (Fintype.card ι : ℝ) = N) (a : ι → EReal) (c : ℝ)
    (j : ι) :
    (a j - (c : EReal)) - Ideal.div (∑ k, (a k - (c : EReal))) (N : EReal)
      = a j - Ideal.div (∑ k, a k) (N : EReal) := by
  have hnn : (0 : EReal) ≤ ((1 / N : ℝ) : EReal) := by
    exact_mod_cast (one_div_pos.mpr hN).le
  have hc : (-((N * c : ℝ) : EReal)) * ((1 / N : ℝ) : EReal) = ((-c : ℝ) : EReal) := by
    rw [← EReal.coe_neg, ← EReal.coe_mul]
    congr 1
    field_simp
  rw [sum_sub_const, hcard, Ideal.div_coe hN.ne', Ideal.div_coe hN.ne', sub_eq_add_neg (∑ k, a k),
    EReal.right_distrib_of_nonneg_of_ne_top hnn (EReal.coe_ne_top _), hc, sub_sub_add_neg]

/-- Subtracting a real constant commutes with the maximum of two extended reals. -/
theorem max_sub_const (x y : EReal) (c : ℝ) :
    max (x - (c : EReal)) (y - (c : EReal)) = max x y - (c : EReal) := by
  simp only [sub_eq_add_neg, max_add_add_right]

/-- Subtracting a real constant commutes with the maximum of five extended reals. -/
theorem max5_sub_const (g : Fin 5 → EReal) (c : ℝ) :
    max (max (max (max (g 0 - (c : EReal)) (g 1 - (c : EReal))) (g 2 - (c : EReal)))
        (g 3 - (c : EReal))) (g 4 - (c : EReal))
      = max (max (max (max (g 0) (g 1)) (g 2)) (g 3)) (g 4) - (c : EReal) := by
  simp only [max_sub_const]

/-- The supremum of five extended reals is their iterated maximum. -/
theorem sup_univ_fin5 (g : Fin 5 → EReal) :
    Finset.univ.sup g = max (max (max (max (g 0) (g 1)) (g 2)) (g 3)) (g 4) := by
  apply le_antisymm
  · apply Finset.sup_le
    intro i _
    fin_cases i <;> simp [le_max_iff]
  · simp only [max_le_iff]
    exact ⟨⟨⟨⟨Finset.le_sup (Finset.mem_univ _), Finset.le_sup (Finset.mem_univ _)⟩,
      Finset.le_sup (Finset.mem_univ _)⟩, Finset.le_sup (Finset.mem_univ _)⟩,
      Finset.le_sup (Finset.mem_univ _)⟩

/-- Folding the maximum from `⊥` over five extended reals gives their iterated maximum. -/
theorem fold_max_bot (g : Fin 5 → EReal) :
    Finset.univ.fold max ⊥ g = max (max (max (max (g 0) (g 1)) (g 2)) (g 3)) (g 4) := by
  rw [← sup_univ_fin5]
  rfl

end Cert.CentreShift

end
-- ==== Proof.Consts.lean ====
/- The float constants this certificate's programs spell, as the extended reals their patterns denote. -/
import Idealize.ShloMosaic.PureOps.Ideal
import Idealize.ShloMosaic.PureOps.Ideal.Laws

noncomputable section

namespace Cert.Consts

open Idealize.ShloMosaic

/-- The pattern `0x41980000` denotes the real `19`. -/
theorem ofBits_19 : Ideal.ofBits .f32 0x41980000#32 = ((19 : ℝ) : EReal) := by
  simp [Ideal.ofBits, Ideal.ieee, -EReal.coe_mul]; norm_num

/-- The pattern `0x44000000` denotes the real `512`. -/
theorem ofBits_512 : Ideal.ofBits .f32 0x44000000#32 = ((512 : ℝ) : EReal) := by
  simp [Ideal.ofBits, Ideal.ieee, -EReal.coe_mul]; norm_num

/-- The pattern `0x43EB3F8E` is finite: it denotes a real. -/
theorem shiftK_real : ∃ r : ℝ, Ideal.ofBits .f32 0x43EB3F8E#32 = (r : EReal) := by
  refine ⟨(15417230 : ℝ) / 32768, ?_⟩
  simp [Ideal.ofBits, Ideal.ieee, -EReal.coe_mul]; norm_num

/-- `256 · log 6.2831855` is a real: the pattern `0x40C90FDB` denotes a positive real, whose logarithm is
    real, and `0x43800000` denotes `256`. -/
theorem shiftR_real :
    ∃ r : ℝ, Ideal.ofBits .f32 0x43800000#32 * Ideal.log (Ideal.ofBits .f32 0x40C90FDB#32) = (r : EReal) := by
  have h256 : Ideal.ofBits .f32 0x43800000#32 = ((256 : ℝ) : EReal) := by
    simp [Ideal.ofBits, Ideal.ieee, -EReal.coe_mul]; norm_num
  have h2pi : Ideal.ofBits .f32 0x40C90FDB#32 = (((13176795 : ℝ) / 2097152 : ℝ) : EReal) := by
    simp [Ideal.ofBits, Ideal.ieee, -EReal.coe_mul]; norm_num
  refine ⟨256 * Real.log ((13176795 : ℝ) / 2097152), ?_⟩
  rw [h256, h2pi, Ideal.log_coe, if_neg (by norm_num), EReal.coe_mul]

end Cert.Consts

end
-- ==== Proof.Spec.lean ====
/-
  The mathematics of the head, per pixel, on the extended reals.

  A pixel carries a channel vector x ∈ (Fin 512 → EReal). It is layer-normalised over the channels
  (mean, centred values, mean of squared centred values, reciprocal square root, per-channel gain and
  offset) and then scaled to unit Euclidean length (with a floor on the length). Each of the 19 classes
  owns 5 mixture components; a component has a centre (a row of `means`, itself scaled to unit length)
  and a per-channel scale σ (a row of `diag`). The component's score is

      -1/2 · ( Σ f² / σ² − 2 · Σ f · μ / σ² + Σ μ² / σ² ) − Σ log σ − s

  where s is an additive constant, the same for every component and class. A class's score is the
  largest of its five component scores, and the 19 class scores are layer-normalised once more.

  The point of the last step: centring the class scores removes any finite additive constant, so the
  result does not depend on s — also when some scores are infinite, because adding a real constant to
  every term of a sum adds a real multiple of it to the sum, and a nonnegative real factor distributes
  over sums of extended reals (`out_shift`).
-/
import Idealize.ShloMosaic.PureOps.Ideal
import Idealize.ShloMosaic.PureOps.Ideal.Laws
import proofs.«172692_j24696061952473_2_alg».proof.Proof.LibCentreShift
import proofs.«172692_j24696061952473_2_alg».proof.Proof.Consts

noncomputable section

namespace Cert.Spec

open Idealize.ShloMosaic

/-- The mean of a channel vector. -/
def mean512 (x : Fin 512 → EReal) : EReal := Ideal.div (∑ c, x c) (Ideal.ofBits .f32 0x44000000#32)

/-- Layer normalisation over the 512 channels, with gain `g` and offset `b`. -/
def lnorm (x g b : Fin 512 → EReal) (c : Fin 512) : EReal :=
  (x c - mean512 x) * Ideal.rsqrt (Ideal.div (∑ c', (x c' - mean512 x) * (x c' - mean512 x)) (Ideal.ofBits .f32 0x44000000#32) + (Ideal.ofBits .f32 0x3727C5AC#32)) * g c + b c

/-- Scaling a vector to unit Euclidean length, the length floored. -/
def unitize (v : Fin 512 → EReal) (c : Fin 512) : EReal :=
  Ideal.div (v c) (max (Ideal.sqrt (∑ c', v c' * v c')) (Ideal.ofBits .f32 0x2B8CBCCC#32))

/-- A pixel's feature vector. -/
def feat (x g b : Fin 512 → EReal) : Fin 512 → EReal := unitize (lnorm x g b)

/-- The reciprocal of the squared scale. -/
def ivar (sg : Fin 512 → EReal) (c : Fin 512) : EReal := Ideal.div (Ideal.ofBits .f32 0x3F800000#32) (sg c * sg c)

/-- A component's score before the additive constant: `f` the feature vector, `mu` the centre, `sg` the scale. -/
def score (f mu sg : Fin 512 → EReal) : EReal :=
  (Ideal.ofBits .f32 0xBF000000#32) * ((∑ c, f c * f c * ivar sg c) - (Ideal.ofBits .f32 0x40000000#32) * (∑ c, f c * (mu c * ivar sg c)) + ∑ c, mu c * mu c * ivar sg c)
    - ∑ c, Ideal.log (sg c)

/-- The largest of five values, associated to the left. -/
def max5 (g : Fin 5 → EReal) : EReal := max (max (max (max (g 0) (g 1)) (g 2)) (g 3)) (g 4)

/-- The mean of the 19 class scores. -/
def mean19 (a : Fin 19 → EReal) : EReal := Ideal.div (∑ k, a k) (Ideal.ofBits .f32 0x41980000#32)

/-- Layer normalisation over the 19 classes, with gain `g` and offset `b`. -/
def cnorm (a g b : Fin 19 → EReal) (k : Fin 19) : EReal :=
  (a k - mean19 a) * Ideal.rsqrt (Ideal.div (∑ k', (a k' - mean19 a) * (a k' - mean19 a)) (Ideal.ofBits .f32 0x41980000#32) + (Ideal.ofBits .f32 0x3727C5AC#32)) * g k + b k

/-- A class's score: the largest of its components' scores, each lowered by the constant `s`. -/
def classScore (x fg fb : Fin 512 → EReal) (means diag : Fin 19 → Fin 5 → Fin 512 → EReal) (s : EReal) (k : Fin 19) : EReal :=
  max5 fun m => score (feat x fg fb) (unitize (means k m)) (diag k m) - s

/-- The head's output at a pixel: the 19 class scores, layer-normalised. -/
def out (x fg fb : Fin 512 → EReal) (means diag : Fin 19 → Fin 5 → Fin 512 → EReal) (mg mb : Fin 19 → EReal) (s : EReal) :
    Fin 19 → EReal :=
  cnorm (classScore x fg fb means diag s) mg mb

/-- Lowering every component score by a real constant lowers the class score by it. -/
theorem classScore_sub (x fg fb : Fin 512 → EReal) (means diag : Fin 19 → Fin 5 → Fin 512 → EReal) (r : ℝ) (k : Fin 19) :
    classScore x fg fb means diag (r : EReal) k
      = max5 (fun m => score (feat x fg fb) (unitize (means k m)) (diag k m)) - (r : EReal) := by
  unfold classScore max5
  exact Cert.CentreShift.max5_sub_const (fun m => score (feat x fg fb) (unitize (means k m)) (diag k m)) r

/-- Layer normalisation over the classes ignores a real constant subtracted from every class score. -/
theorem cnorm_sub (a g b : Fin 19 → EReal) (r : ℝ) : cnorm (fun k => a k - (r : EReal)) g b = cnorm a g b := by
  have hc : ∀ j : Fin 19, (a j - (r : EReal)) - mean19 (fun k => a k - (r : EReal)) = a j - mean19 a := by
    intro j
    unfold mean19
    rw [Cert.Consts.ofBits_19]
    exact Cert.CentreShift.centre_shift 19 (by norm_num) (by simp) a r j
  funext k
  unfold cnorm
  simp only [hc]

/-- The head's output does not depend on a real additive constant. -/
theorem out_shift (x fg fb : Fin 512 → EReal) (means diag : Fin 19 → Fin 5 → Fin 512 → EReal) (mg mb : Fin 19 → EReal)
    (r₁ r₂ : ℝ) : out x fg fb means diag mg mb (r₁ : EReal) = out x fg fb means diag mg mb (r₂ : EReal) := by
  unfold out
  have h : ∀ r : ℝ, classScore x fg fb means diag (r : EReal)
      = fun k => max5 (fun m => score (feat x fg fb) (unitize (means k m)) (diag k m)) - (r : EReal) :=
    fun r => funext fun k => classScore_sub x fg fb means diag r k
  rw [h r₁, h r₂, cnorm_sub, cnorm_sub]

end Cert.Spec

end
-- ==== Proof.KHost.lean ====
/-
  The small tables the host computes before the kernel runs, read entry by entry.

  The 95 mixture components are laid out component-major: column q = m·19 + k holds component m of class k.
  Table 1 holds 1/σ², table 2 holds μ/σ² (μ the unit-length centre), both as [512, 95]; table 3 holds
  Σ_c μ²/σ² and table 4 holds Σ_c log σ, both as one row of 95. The two gain/offset pairs are the
  arguments re-laid as [512,1,1] and [1,19].
-/
import proofs.«172692_j24696061952473_2_alg».proof.Proof.Gen.KernelIdeal.Frame
import proofs.«172692_j24696061952473_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostTables

open Cert.KernelIdeal Cert.KernelIdeal.Gen Idealize.ShloMosaic Idealize.ShloMosaic.TcCoe Idealize.SL.Sem
open Idealize.ShloMosaic.StableHlo Idealize.ShloMosaic.ValueIdx

/-- The centres scaled to unit length, [19,5,512]. -/
def muT (a1 : S19x5x512.Idx → EReal) : S19x5x512.Idx → EReal :=
  Host.divf (F := Ideal) (φ := .f32) a1 (broadcastInDim S19x5x512 ![0, 1, 2] bcast_S19x5x1_S19x5x512_0_1_2
    (maximumf (F := Ideal) (φ := .f32) (Host.sqrt (F := Ideal) (φ := .f32) (broadcastInDim S19x5x1 ![0, 1] bcast_S19x5_S19x5x1_0_1
        (Host.reduceAdd (F := Ideal) (φ := .f32) (mulf (F := Ideal) (φ := .f32) a1 a1) (constant (F := Ideal) S_ .f32 0x00000000#32) reducesTo_S19x5x512_S19x5_d2 h_S_)))
      (broadcastInDim S19x5x1 ![] bcast_S_S19x5x1 (constant (F := Ideal) S_ .f32 0x2B8CBCCC#32))))

/-- The reciprocal squared scales, [19,5,512]. -/
def ivT (a2 : S19x5x512.Idx → EReal) : S19x5x512.Idx → EReal :=
  Host.divf (F := Ideal) (φ := .f32) (broadcastInDim S19x5x512 ![] bcast_S_S19x5x512 (constant (F := Ideal) S_ .f32 0x3F800000#32))
    (mulf (F := Ideal) (φ := .f32) a2 a2)

/-- A [19,5,512] table re-laid component-major as 95 rows. -/
def rows (v : S19x5x512.Idx → EReal) : S95x512.Idx → EReal :=
  shapeCast S95x512 (transpose S5x19x512 [1, 0, 2] v transposes_S19x5x512_S5x19x512_1_0_2) shapeCasts_S5x19x512_S95x512

def tab1 (a2 : S19x5x512.Idx → EReal) : S512x95.Idx → EReal :=
  transpose S512x95 [1, 0] (rows (ivT a2)) transposes_S95x512_S512x95_1_0

def tab2 (a1 a2 : S19x5x512.Idx → EReal) : S512x95.Idx → EReal :=
  transpose S512x95 [1, 0] (mulf (F := Ideal) (φ := .f32) (rows (muT a1)) (rows (ivT a2))) transposes_S95x512_S512x95_1_0

def tab3 (a1 a2 : S19x5x512.Idx → EReal) : S1x95.Idx → EReal :=
  broadcastInDim S1x95 ![1] bcast_S95_S1x95_1
    (Host.reduceAdd (F := Ideal) (φ := .f32) (mulf (F := Ideal) (φ := .f32) (mulf (F := Ideal) (φ := .f32) (rows (muT a1)) (rows (muT a1))) (rows (ivT a2)))
      (constant (F := Ideal) S_ .f32 0x00000000#32) reducesTo_S95x512_S95_d1 h_S_)

def tab4 (a2 : S19x5x512.Idx → EReal) : S1x95.Idx → EReal :=
  broadcastInDim S1x95 ![1] bcast_S95_S1x95_1
    (Host.reduceAdd (F := Ideal) (φ := .f32) (Host.log (F := Ideal) (φ := .f32) (rows a2)) (constant (F := Ideal) S_ .f32 0x00000000#32) reducesTo_S95x512_S95_d1 h_S_)

variable (m : (ℓ : Loc nD τ sig) → Buf (Elt Ideal) ℓ)

/-! ## What the region finds in each window's array -/

theorem V_v14 (c : Dev nD) : (V m c main_v14 : S512x95.Idx → EReal) = tab1 (m ((c : Thread nD τ).loc main_arg2)) := by
  dsimp only [Gen.V]
  simp only [Gen.hostOps0, Gen.hostOps0_1, List.flatten_cons, List.flatten_nil, List.append_nil, List.cons_append, List.nil_append]
  after_results
  rfl

set_option maxHeartbeats 2000000 in
theorem V_v16 (c : Dev nD) : (V m c main_v16 : S512x95.Idx → EReal)
    = tab2 (m ((c : Thread nD τ).loc main_arg1)) (m ((c : Thread nD τ).loc main_arg2)) := by
  dsimp only [Gen.V]
  simp only [Gen.hostOps0, Gen.hostOps0_1, List.flatten_cons, List.flatten_nil, List.append_nil, List.cons_append, List.nil_append]
  after_results
  rfl

set_option maxHeartbeats 4000000 in
theorem V_v20 (c : Dev nD) : (V m c main_v20 : S1x95.Idx → EReal)
    = tab3 (m ((c : Thread nD τ).loc main_arg1)) (m ((c : Thread nD τ).loc main_arg2)) := by
  dsimp only [Gen.V]
  simp only [Gen.hostOps0, Gen.hostOps0_1, List.flatten_cons, List.flatten_nil, List.append_nil, List.cons_append, List.nil_append]
  after_results
  rfl

theorem V_v23 (c : Dev nD) : (V m c main_v23 : S1x95.Idx → EReal) = tab4 (m ((c : Thread nD τ).loc main_arg2)) := by
  dsimp only [Gen.V]
  simp only [Gen.hostOps0, Gen.hostOps0_1, List.flatten_cons, List.flatten_nil, List.append_nil, List.cons_append, List.nil_append]
  after_results
  rfl

theorem V_v24 (c : Dev nD) : (V m c main_v24 : S512x1x1.Idx → EReal)
    = shapeCast S512x1x1 (m ((c : Thread nD τ).loc main_arg3) : S512.Idx → EReal) shapeCasts_S512_S512x1x1 := by
  dsimp only [Gen.V]
  simp only [Gen.hostOps0, Gen.hostOps0_1, List.flatten_cons, List.flatten_nil, List.append_nil, List.cons_append, List.nil_append]
  after_results
  rfl

theorem V_v25 (c : Dev nD) : (V m c main_v25 : S512x1x1.Idx → EReal)
    = shapeCast S512x1x1 (m ((c : Thread nD τ).loc main_arg4) : S512.Idx → EReal) shapeCasts_S512_S512x1x1 := by
  dsimp only [Gen.V]
  simp only [Gen.hostOps0, Gen.hostOps0_1, List.flatten_cons, List.flatten_nil, List.append_nil, List.cons_append, List.nil_append]
  after_results
  rfl

theorem V_v26 (c : Dev nD) : (V m c main_v26 : S1x19.Idx → EReal)
    = shapeCast S1x19 (m ((c : Thread nD τ).loc main_arg5) : S19.Idx → EReal) shapeCasts_S19_S1x19 := by
  dsimp only [Gen.V]
  simp only [Gen.hostOps0, Gen.hostOps0_1, List.flatten_cons, List.flatten_nil, List.append_nil, List.cons_append, List.nil_append]
  after_results
  rfl

theorem V_v27 (c : Dev nD) : (V m c main_v27 : S1x19.Idx → EReal)
    = shapeCast S1x19 (m ((c : Thread nD τ).loc main_arg6) : S19.Idx → EReal) shapeCasts_S19_S1x19 := by
  dsimp only [Gen.V]
  simp only [Gen.hostOps0, Gen.hostOps0_1, List.flatten_cons, List.flatten_nil, List.append_nil, List.cons_append, List.nil_append]
  after_results
  rfl

/-! ## The tables entry by entry -/

/-- Row q = m·19 + k of the component-major layout is component m of class k. -/
theorem rows_apply (v : S19x5x512.Idx → EReal) (m : Fin 5) (k : Fin 19) (q : Fin 95) (hq : q.val = m.val * 19 + k.val) (c : Fin 512) :
    rows v (ix2 q c) = v (ix3 k m c) := by
  unfold rows
  refine (shapeCast_apply _ _ (ix2 q c) (ix3 m k c) ?_).trans ?_
  · rw [Shape.rowMajor_val_three, Shape.rowMajor_val_two]
    show (m.val * 19 + k.val) * 512 + c.val = q.val * 512 + c.val
    rw [hq]
  · exact transpose_apply [1, 0, 2] v _ (ix3 m k c) (ix3 k m c) (fun b => match b with | ⟨0, _⟩ => rfl | ⟨1, _⟩ => rfl | ⟨2, _⟩ => rfl)

/-- The sum of squares of a centre, as the host's reduction gives it. -/
theorem sumsq_apply (a1 : S19x5x512.Idx → EReal) (k : Fin 19) (m : Fin 5) :
    Host.reduceAdd (F := Ideal) (φ := .f32) (mulf (F := Ideal) (φ := .f32) a1 a1) (constant (F := Ideal) S_ .f32 0x00000000#32) reducesTo_S19x5x512_S19x5_d2 h_S_ (ix2 k m)
      = ∑ c' : Fin 512, a1 (ix3 k m c') * a1 (ix3 k m c') := by
  simp only [Host.reduceAdd, Ideal.hostReduceAdd_def]
  rw [Ideal.hostReduceAdd_single reducesTo_S19x5x512_S19x5_d2 (by decide)]
  show Ideal.ofBits .f32 0x00000000#32 + _ = _
  rw [Ideal.ofBits_zero_f32, zero_add]
  refine Finset.sum_congr rfl fun (c' : Fin 512) _ => ?_
  have e : (Shape.Reduces.lift (s := S19x5x512) (t := S19x5) (a := 2) (by decide) (ix2 k m) c') = ix3 k m c' :=
    funext fun a => Fin.ext (by match a with | ⟨0, _⟩ => rfl | ⟨1, _⟩ => rfl | ⟨2, _⟩ => rfl)
  show a1 _ * a1 _ = _
  rw [e]

/-- A centre scaled to unit length. -/
theorem muT_apply (a1 : S19x5x512.Idx → EReal) (k : Fin 19) (m : Fin 5) (c : Fin 512) :
    muT a1 (ix3 k m c) = Cert.Spec.unitize (fun c' => a1 (ix3 k m c')) c := by
  unfold muT Cert.Spec.unitize
  show Ideal.div (a1 (ix3 k m c)) _ = _
  congr 1
  refine (broadcastInDim_apply (s := S19x5x1) (t := S19x5x512) ![0, 1, 2] bcast_S19x5x1_S19x5x512_0_1_2 _ (ix3 k m c) (ix3 k m (0 : Fin 1))
    (fun a => match a with | ⟨0, _⟩ => rfl | ⟨1, _⟩ => rfl | ⟨2, _⟩ => rfl)).trans ?_
  show max (Ideal.sqrt (broadcastInDim (s := S19x5) S19x5x1 ![0, 1] bcast_S19x5_S19x5x1_0_1 _ (ix3 k m (0 : Fin 1)))) (Ideal.ofBits .f32 0x2B8CBCCC#32) = _
  congr 2
  refine (broadcastInDim_apply (s := S19x5) (t := S19x5x1) ![0, 1] bcast_S19x5_S19x5x1_0_1 _ (ix3 k m (0 : Fin 1)) (ix2 k m)
    (fun a => match a with | ⟨0, _⟩ => rfl | ⟨1, _⟩ => rfl)).trans ?_
  exact sumsq_apply a1 k m

/-- A reciprocal squared scale. -/
theorem ivT_apply (a2 : S19x5x512.Idx → EReal) (k : Fin 19) (m : Fin 5) (c : Fin 512) :
    ivT a2 (ix3 k m c) = Cert.Spec.ivar (fun c' => a2 (ix3 k m c')) c := rfl

theorem tab1_apply (a2 : S19x5x512.Idx → EReal) (m : Fin 5) (k : Fin 19) (q : Fin 95) (hq : q.val = m.val * 19 + k.val) (c : Fin 512) :
    tab1 a2 (ix2 c q) = Cert.Spec.ivar (fun c' => a2 (ix3 k m c')) c := by
  unfold tab1
  refine (transpose_apply [1, 0] _ _ (ix2 c q) (ix2 q c) (fun b => match b with | ⟨0, _⟩ => rfl | ⟨1, _⟩ => rfl)).trans ?_
  rw [rows_apply _ m k q hq c, ivT_apply]

theorem tab2_apply (a1 a2 : S19x5x512.Idx → EReal) (m : Fin 5) (k : Fin 19) (q : Fin 95) (hq : q.val = m.val * 19 + k.val) (c : Fin 512) :
    tab2 a1 a2 (ix2 c q) = Cert.Spec.unitize (fun c' => a1 (ix3 k m c')) c * Cert.Spec.ivar (fun c' => a2 (ix3 k m c')) c := by
  unfold tab2
  refine (transpose_apply [1, 0] _ _ (ix2 c q) (ix2 q c) (fun b => match b with | ⟨0, _⟩ => rfl | ⟨1, _⟩ => rfl)).trans ?_
  show rows (muT a1) (ix2 q c) * rows (ivT a2) (ix2 q c) = _
  rw [rows_apply _ m k q hq c, rows_apply _ m k q hq c, ivT_apply, muT_apply]

theorem tab3_apply (a1 a2 : S19x5x512.Idx → EReal) (m : Fin 5) (k : Fin 19) (q : Fin 95) (hq : q.val = m.val * 19 + k.val) :
    tab3 a1 a2 (ix2 (0 : Fin 1) q)
      = ∑ c : Fin 512, Cert.Spec.unitize (fun c' => a1 (ix3 k m c')) c * Cert.Spec.unitize (fun c' => a1 (ix3 k m c')) c
          * Cert.Spec.ivar (fun c' => a2 (ix3 k m c')) c := by
  unfold tab3
  refine (broadcastInDim_apply (s := S95) (t := S1x95) ![1] bcast_S95_S1x95_1 _ (ix2 (0 : Fin 1) q) (ix1 q) (fun a => match a with | ⟨0, _⟩ => rfl)).trans ?_
  simp only [Host.reduceAdd, Ideal.hostReduceAdd_def]
  rw [Ideal.hostReduceAdd_single reducesTo_S95x512_S95_d1 (by decide)]
  show Ideal.ofBits .f32 0x00000000#32 + _ = _
  rw [Ideal.ofBits_zero_f32, zero_add]
  refine Finset.sum_congr rfl fun (c : Fin 512) _ => ?_
  have e : (Shape.Reduces.lift (s := S95x512) (t := S95) (a := 1) (by decide) (ix1 q) c) = ix2 q c :=
    funext fun a => Fin.ext (by match a with | ⟨0, _⟩ => rfl | ⟨1, _⟩ => rfl)
  show rows (muT a1) _ * rows (muT a1) _ * rows (ivT a2) _ = _
  rw [e, rows_apply _ m k q hq c, rows_apply _ m k q hq c, ivT_apply, muT_apply]

theorem tab4_apply (a2 : S19x5x512.Idx → EReal) (m : Fin 5) (k : Fin 19) (q : Fin 95) (hq : q.val = m.val * 19 + k.val) :
    tab4 a2 (ix2 (0 : Fin 1) q) = ∑ c : Fin 512, Ideal.log (a2 (ix3 k m c)) := by
  unfold tab4
  refine (broadcastInDim_apply (s := S95) (t := S1x95) ![1] bcast_S95_S1x95_1 _ (ix2 (0 : Fin 1) q) (ix1 q) (fun a => match a with | ⟨0, _⟩ => rfl)).trans ?_
  simp only [Host.reduceAdd, Ideal.hostReduceAdd_def]
  rw [Ideal.hostReduceAdd_single reducesTo_S95x512_S95_d1 (by decide)]
  show Ideal.ofBits .f32 0x00000000#32 + _ = _
  rw [Ideal.ofBits_zero_f32, zero_add]
  refine Finset.sum_congr rfl fun (c : Fin 512) _ => ?_
  have e : (Shape.Reduces.lift (s := S95x512) (t := S95) (a := 1) (by decide) (ix1 q) c) = ix2 q c :=
    funext fun a => Fin.ext (by match a with | ⟨0, _⟩ => rfl | ⟨1, _⟩ => rfl)
  show Ideal.log (rows a2 _) = _
  rw [e, rows_apply _ m k q hq c]

/-- A length-n vector re-laid as [n,1,1], and as [1,n]. -/
theorem col_apply (a : S512.Idx → EReal) (c : Fin 512) :
    shapeCast S512x1x1 a shapeCasts_S512_S512x1x1 (ix3 c (0 : Fin 1) (0 : Fin 1)) = a (ix1 c) := by
  refine shapeCast_apply _ _ _ (ix1 c) ?_
  rw [Shape.rowMajor_val_one, Shape.rowMajor_val_three]
  show c.val = (c.val * 1 + 0) * 1 + 0
  omega

theorem row_apply (a : S19.Idx → EReal) (k : Fin 19) :
    shapeCast S1x19 a shapeCasts_S19_S1x19 (ix2 (0 : Fin 1) k) = a (ix1 k) := by
  refine shapeCast_apply _ _ _ (ix1 k) ?_
  rw [Shape.rowMajor_val_one, Shape.rowMajor_val_two]
  show k.val = 0 * 19 + k.val
  omega

end Cert.KernelIdeal.HostTables

end
-- ==== Proof.KBody.lean ====
/-
  The kernel's body, read entry by entry at the ideal values.

  A block of the input is [512, 16, 128]: 512 channels at each of 16·128 pixels. The body normalises
  every pixel's channel vector (layer norm, then unit length), moves the channels to the last axis
  ([2048, 512], row r = hh·128 + w), multiplies by the two [512, 95] tables, forms the 95 component scores,
  takes the largest of the five components of each class (column m·19 + k holds component m of class k),
  layer-normalises the 19 class scores and moves the classes back to the first axis.
-/
import proofs.«172692_j24696061952473_2_alg».proof.Proof.Gen.KernelIdeal.Skeleton
import proofs.«172692_j24696061952473_2_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The channel vector of pixel (hh, w) of a [512,16,128] block. -/
def col (v : S512x16x128.Idx → EReal) (hh : Fin 16) (w : Fin 128) : Fin 512 → EReal := fun c => v (ix3 c hh w)

/-! ## Layout steps read at an index -/

/-- A sum over the channel axis. -/
theorem sum0_apply (v : FVec Ideal S512x16x128 .f32) (hh : Fin 16) (w : Fin 128) :
    multiReduction .add [0] S16x128 v 0x00000000#32 reduces_S512x16x128_S16x128 (.inl rfl) rfl (ix2 hh w)
      = ∑ c : Fin 512, v (ix3 c hh w) := by
  refine (Ideal.multiReduction_add_single v 0x00000000#32 reduces_S512x16x128_S16x128 (.inl rfl) rfl (ix2 hh w)).trans ?_
  refine Finset.sum_congr rfl fun (c : Fin 512) _ => ?_
  exact congrArg v (funext fun a => Fin.ext (by match a with | ⟨0, _⟩ => rfl | ⟨1, _⟩ => rfl | ⟨2, _⟩ => rfl))

/-- [16,128] kept as [1,16,128]. -/
theorem up_apply (u : S16x128.Idx → EReal) (hh : Fin 16) (w : Fin 128) :
    shapeCast S1x16x128 u shapeCasts_S16x128_S1x16x128 (ix3 (0 : Fin 1) hh w) = u (ix2 hh w) := by
  refine shapeCast_apply _ _ _ (ix2 hh w) ?_
  rw [Shape.rowMajor_val_two, Shape.rowMajor_val_three]
  show hh.val * 128 + w.val = (0 * 16 + hh.val) * 128 + w.val
  omega

/-- One value per pixel spread over the channels. -/
theorem bcPix_apply (u : S1x16x128.Idx → EReal) (c : Fin 512) (hh : Fin 16) (w : Fin 128) :
    broadcastTo S512x16x128 u broadcasts_S1x16x128_S512x16x128 (ix3 c hh w) = u (ix3 (0 : Fin 1) hh w) :=
  broadcastTo_apply _ _ _ (ix3 (0 : Fin 1) hh w) (fun a => match a with | ⟨0, _⟩ => rfl | ⟨1, _⟩ => rfl | ⟨2, _⟩ => rfl)

/-- One value per channel spread over the pixels. -/
theorem bcChan_apply (u : S512x1x1.Idx → EReal) (c : Fin 512) (hh : Fin 16) (w : Fin 128) :
    broadcastTo S512x16x128 u broadcasts_S512x1x1_S512x16x128 (ix3 c hh w) = u (ix3 c (0 : Fin 1) (0 : Fin 1)) :=
  broadcastTo_apply _ _ _ (ix3 c (0 : Fin 1) (0 : Fin 1)) (fun a => match a with | ⟨0, _⟩ => rfl | ⟨1, _⟩ => rfl | ⟨2, _⟩ => rfl)

/-- The block's leading unit axis dropped. -/
theorem in_apply (x0 : S1x512x16x128.Idx → EReal) (c : Fin 512) (hh : Fin 16) (w : Fin 128) :
    shapeCast S512x16x128 x0 shapeCasts_S1x512x16x128_S512x16x128 (ix3 c hh w) = x0 (ix4 (0 : Fin 1) c hh w) := by
  refine shapeCast_apply _ _ _ (ix4 (0 : Fin 1) c hh w) ?_
  rw [Shape.rowMajor_val_three, Shape.rowMajor_val_four]
  show ((0 * 512 + c.val) * 16 + hh.val) * 128 + w.val = (c.val * 16 + hh.val) * 128 + w.val
  omega

/-- Channels moved to the last axis and the pixels flattened to rows. -/
theorem toRows_apply (v : S512x16x128.Idx → EReal) (hh : Fin 16) (w : Fin 128) (r : Fin 2048) (hr : r.val = hh.val * 128 + w.val) (c : Fin 512) :
    shapeCast S2048x512 (transpose S16x128x512 [1, 2, 0] v transposes_S512x16x128_p1_2_0_S16x128x512) shapeCasts_S16x128x512_S2048x512 (ix2 r c)
      = v (ix3 c hh w) := by
  refine (shapeCast_apply _ _ (ix2 r c) (ix3 hh w c) ?_).trans ?_
  · rw [Shape.rowMajor_val_three, Shape.rowMajor_val_two]
    show (hh.val * 128 + w.val) * 512 + c.val = r.val * 512 + c.val
    rw [hr]
  · exact transpose_apply [1, 2, 0] v _ (ix3 hh w c) (ix3 c hh w) (fun b => match b with | ⟨0, _⟩ => rfl | ⟨1, _⟩ => rfl | ⟨2, _⟩ => rfl)

/-! ## The feature normalisation -/

/-- Per pixel, the mean over the channels (kept as [1,16,128]). -/
def kMean (v : FVec Ideal S512x16x128 .f32) : FVec Ideal S1x16x128 .f32 :=
  divf (shapeCast S1x16x128 (multiReduction .add [0] S16x128 v 0x00000000#32 reduces_S512x16x128_S16x128 (.inl rfl) rfl) shapeCasts_S16x128_S1x16x128)
    (broadcast S1x16x128 (Scalar.ofBits .f32 0x44000000#32))

def kCent (v : FVec Ideal S512x16x128 .f32) : FVec Ideal S512x16x128 .f32 :=
  subf v (broadcastTo S512x16x128 (kMean v) broadcasts_S1x16x128_S512x16x128)

def kRstd (d : FVec Ideal S512x16x128 .f32) : FVec Ideal S1x16x128 .f32 :=
  rsqrt (addf (kMean (mulf d d)) (broadcast S1x16x128 (Scalar.ofBits .f32 0x3727C5AC#32)))

def kLn (v : FVec Ideal S512x16x128 .f32) (g b : FVec Ideal S512x1x1 .f32) : FVec Ideal S512x16x128 .f32 :=
  addf (mulf (mulf (kCent v) (broadcastTo S512x16x128 (kRstd (kCent v)) broadcasts_S1x16x128_S512x16x128))
      (broadcastTo S512x16x128 g broadcasts_S512x1x1_S512x16x128))
    (broadcastTo S512x16x128 b broadcasts_S512x1x1_S512x16x128)

def kUnit (v : FVec Ideal S512x16x128 .f32) : FVec Ideal S512x16x128 .f32 :=
  divf v (broadcastTo S512x16x128
    (maximumf (sqrt (shapeCast S1x16x128 (multiReduction .add [0] S16x128 (mulf v v) 0x00000000#32 reduces_S512x16x128_S16x128 (.inl rfl) rfl) shapeCasts_S16x128_S1x16x128))
      (broadcast S1x16x128 (Scalar.ofBits .f32 0x2B8CBCCC#32)))
    broadcasts_S1x16x128_S512x16x128)

/-- The body's normalised features are these steps in order. -/
theorem pay2_eq (x0 : Vec Ideal S1x512x16x128 .f32) (x5 x6 : Vec Ideal S512x1x1 .f32) :
    k0_pay2 (F := Ideal) x0 x5 x6
      = shapeCast S2048x512 (transpose S16x128x512 [1, 2, 0]
          (kUnit (kLn (shapeCast S512x16x128 x0 shapeCasts_S1x512x16x128_S512x16x128)
            (shapeCast S512x1x1 x5 shapeCasts_S512x1x1_S512x1x1) (shapeCast S512x1x1 x6 shapeCasts_S512x1x1_S512x1x1)))
          transposes_S512x16x128_p1_2_0_S16x128x512) shapeCasts_S16x128x512_S2048x512 := rfl

theorem kMean_apply (v : FVec Ideal S512x16x128 .f32) (hh : Fin 16) (w : Fin 128) :
    kMean v (ix3 (0 : Fin 1) hh w) = Cert.Spec.mean512 (col v hh w) := by
  unfold kMean Cert.Spec.mean512 col
  show Ideal.div (shapeCast S1x16x128 _ shapeCasts_S16x128_S1x16x128 (ix3 (0 : Fin 1) hh w)) (Ideal.ofBits .f32 0x44000000#32) = _
  rw [up_apply, sum0_apply]

theorem kCent_apply (v : FVec Ideal S512x16x128 .f32) (c : Fin 512) (hh : Fin 16) (w : Fin 128) :
    kCent v (ix3 c hh w) = v (ix3 c hh w) - Cert.Spec.mean512 (col v hh w) := by
  unfold kCent
  show v (ix3 c hh w) - broadcastTo S512x16x128 (kMean v) broadcasts_S1x16x128_S512x16x128 (ix3 c hh w) = _
  rw [bcPix_apply, kMean_apply]

theorem kRstd_apply (d : FVec Ideal S512x16x128 .f32) (hh : Fin 16) (w : Fin 128) :
    kRstd d (ix3 (0 : Fin 1) hh w)
      = Ideal.rsqrt (Ideal.div (∑ c : Fin 512, d (ix3 c hh w) * d (ix3 c hh w)) (Ideal.ofBits .f32 0x44000000#32) + Ideal.ofBits .f32 0x3727C5AC#32) := by
  unfold kRstd
  show Ideal.rsqrt (kMean (mulf d d) (ix3 (0 : Fin 1) hh w) + Ideal.ofBits .f32 0x3727C5AC#32) = _
  rw [kMean_apply]
  rfl

theorem kLn_apply (v : FVec Ideal S512x16x128 .f32) (g b : FVec Ideal S512x1x1 .f32) (c : Fin 512) (hh : Fin 16) (w : Fin 128) :
    kLn v g b (ix3 c hh w)
      = Cert.Spec.lnorm (col v hh w) (fun c' => g (ix3 c' (0 : Fin 1) (0 : Fin 1))) (fun c' => b (ix3 c' (0 : Fin 1) (0 : Fin 1))) c := by
  unfold kLn Cert.Spec.lnorm
  show kCent v (ix3 c hh w) * broadcastTo S512x16x128 (kRstd (kCent v)) broadcasts_S1x16x128_S512x16x128 (ix3 c hh w)
        * broadcastTo S512x16x128 g broadcasts_S512x1x1_S512x16x128 (ix3 c hh w)
      + broadcastTo S512x16x128 b broadcasts_S512x1x1_S512x16x128 (ix3 c hh w) = _
  rw [bcPix_apply, bcChan_apply, bcChan_apply, kRstd_apply, kCent_apply]
  simp only [kCent_apply]
  rfl

theorem kUnit_apply (v : FVec Ideal S512x16x128 .f32) (c : Fin 512) (hh : Fin 16) (w : Fin 128) :
    kUnit v (ix3 c hh w) = Cert.Spec.unitize (col v hh w) c := by
  unfold kUnit Cert.Spec.unitize
  show Ideal.div (v (ix3 c hh w)) (broadcastTo S512x16x128 _ broadcasts_S1x16x128_S512x16x128 (ix3 c hh w)) = _
  rw [bcPix_apply]
  show Ideal.div (v (ix3 c hh w)) (max (Ideal.sqrt (shapeCast S1x16x128 _ shapeCasts_S16x128_S1x16x128 (ix3 (0 : Fin 1) hh w))) (Ideal.ofBits .f32 0x2B8CBCCC#32)) = _
  rw [up_apply, sum0_apply]
  rfl

/-- The body's normalised feature of pixel (hh, w), channel c, is the specification's. -/
theorem pay2_apply (x0 : Vec Ideal S1x512x16x128 .f32) (x5 x6 : Vec Ideal S512x1x1 .f32) (hh : Fin 16) (w : Fin 128)
    (r : Fin 2048) (hr : r.val = hh.val * 128 + w.val) (c : Fin 512) :
    k0_pay2 (F := Ideal) x0 x5 x6 (ix2 r c)
      = Cert.Spec.feat (fun c' => x0 (ix4 (0 : Fin 1) c' hh w)) (fun c' => x5 (ix3 c' (0 : Fin 1) (0 : Fin 1)))
          (fun c' => x6 (ix3 c' (0 : Fin 1) (0 : Fin 1))) c := by
  rw [pay2_eq, toRows_apply _ hh w r hr c, kUnit_apply]
  unfold Cert.Spec.feat
  congr 1
  funext c'
  show kLn _ _ _ (ix3 c' hh w) = _
  rw [kLn_apply, shapeCast_self, shapeCast_self]
  congr 1
  funext c''
  exact in_apply x0 c'' hh w

/-! ## The component scores -/

/-- Column m·19 + k of the component-major layout. -/
def comp (m : Fin 5) (k : Fin 19) : Fin 95 := ⟨m.val * 19 + k.val, by have := m.isLt; have := k.isLt; omega⟩

theorem lhs0 (i : S2048x95.Idx) (q : dot_S2048x512_S512x95_S2048x95_1_0_0_1_n_n.contr.Idx) :
    (dot_S2048x512_S512x95_S2048x95_1_0_0_1_n_n.lhsIdx i q 0).val = (i 0).val := by
  unfold DotDims.lhsIdx
  rw [dif_neg (show ¬(0 : Fin S2048x512.rank) ∈ dot_S2048x512_S512x95_S2048x95_1_0_0_1_n_n.lhsBatch by decide),
    dif_pos (show (0 : Fin S2048x512.rank) ∈ dot_S2048x512_S512x95_S2048x95_1_0_0_1_n_n.lhsNonContracting by decide)]
  rfl

theorem rhs1 (i : S2048x95.Idx) (q : dot_S2048x512_S512x95_S2048x95_1_0_0_1_n_n.contr.Idx) :
    (dot_S2048x512_S512x95_S2048x95_1_0_0_1_n_n.rhsIdx i q 1).val = (i 1).val := by
  unfold DotDims.rhsIdx
  rw [dif_neg (show ¬(1 : Fin S512x95.rank) ∈ dot_S2048x512_S512x95_S2048x95_1_0_0_1_n_n.rhsBatch by decide),
    dif_pos (show (1 : Fin S512x95.rank) ∈ dot_S2048x512_S512x95_S2048x95_1_0_0_1_n_n.rhsNonContracting by decide)]
  rfl

/-- A product with a [512,95] table into the zero accumulator is, at (r, q), the sum over the channels. -/
theorem mm_apply (lhs : FVec Ideal S2048x512 .bf16) (rhs : FVec Ideal S512x95 .bf16) (r : Fin 2048) (q : Fin 95) :
    matmul dot_S2048x512_S512x95_S2048x95_1_0_0_1_n_n none lhs rhs (constant S2048x95 .f32 0x00000000#32) (ix2 r q)
      = ∑ c : Fin 512, lhs (ix2 r c) * rhs (ix2 c q) := by
  simp only [matmul]
  rw [Ideal.matmul_constant_zero_apply, ← Equiv.sum_comp (ValueIdx.contrEquiv1 dot_S2048x512_S512x95_S2048x95_1_0_0_1_n_n 512 rfl rfl).symm]
  refine Finset.sum_congr rfl fun k _ => ?_
  have hk := ValueIdx.contrEquiv1_symm_val dot_S2048x512_S512x95_S2048x95_1_0_0_1_n_n 512 rfl rfl k
  have el : dot_S2048x512_S512x95_S2048x95_1_0_0_1_n_n.lhsIdx (ix2 r q) ((ValueIdx.contrEquiv1 dot_S2048x512_S512x95_S2048x95_1_0_0_1_n_n 512 rfl rfl).symm k) = ix2 r k :=
    funext fun a => Fin.ext (by
      match a with
      | ⟨0, _⟩ => exact lhs0 _ _
      | ⟨1, _⟩ => exact (dot_S2048x512_S512x95_S2048x95_1_0_0_1_n_n.lhsIdx_val_of_single rfl _ _).trans hk)
  have er : dot_S2048x512_S512x95_S2048x95_1_0_0_1_n_n.rhsIdx (ix2 r q) ((ValueIdx.contrEquiv1 dot_S2048x512_S512x95_S2048x95_1_0_0_1_n_n 512 rfl rfl).symm k) = ix2 k q :=
    funext fun a => Fin.ext (by
      match a with
      | ⟨0, _⟩ => exact (dot_S2048x512_S512x95_S2048x95_1_0_0_1_n_n.rhsIdx_val_of_single rfl _ _).trans hk
      | ⟨1, _⟩ => exact rhs1 _ _)
  rw [el, er]

/-- One row of 95 spread down the 2048 rows. -/
theorem bcRow95_apply (u : S1x95.Idx → EReal) (r : Fin 2048) (q : Fin 95) :
    broadcastTo S2048x95 u broadcasts_S1x95_S2048x95 (ix2 r q) = u (ix2 (0 : Fin 1) q) :=
  broadcastTo_apply _ _ _ (ix2 (0 : Fin 1) q) (fun a => match a with | ⟨0, _⟩ => rfl | ⟨1, _⟩ => rfl)

/-- The 95 component scores of every row. -/
def kScore (v37 v38 : FVec Ideal S2048x512 .bf16) (v39 v42 : Vec Ideal S512x95 .f32) (v50 v56 : Vec Ideal S1x95 .f32) : FVec Ideal S2048x95 .f32 :=
  subf (subf (mulf (broadcast S2048x95 (Scalar.ofBits .f32 0xBF000000#32))
      (addf (subf (matmul dot_S2048x512_S512x95_S2048x95_1_0_0_1_n_n none v38 (truncf .bf16 (shapeCast S512x95 v39 shapeCasts_S512x95_S512x95) bitsLt_bf16_f32) (constant S2048x95 .f32 0x00000000#32))
          (mulf (broadcast S2048x95 (Scalar.ofBits .f32 0x40000000#32))
            (matmul dot_S2048x512_S512x95_S2048x95_1_0_0_1_n_n none v37 (truncf .bf16 (shapeCast S512x95 v42 shapeCasts_S512x95_S512x95) bitsLt_bf16_f32) (constant S2048x95 .f32 0x00000000#32))))
        (broadcastTo S2048x95 (shapeCast S1x95 v50 shapeCasts_S1x95_S1x95) broadcasts_S1x95_S2048x95)))
      (broadcastTo S2048x95 (shapeCast S1x95 v56 shapeCasts_S1x95_S1x95) broadcasts_S1x95_S2048x95))
    (broadcast S2048x95 (Scalar.ofBits .f32 0x43EB3F8E#32))

theorem kScore_apply (v37 v38 : FVec Ideal S2048x512 .bf16) (v39 v42 : Vec Ideal S512x95 .f32) (v50 v56 : Vec Ideal S1x95 .f32) (r : Fin 2048) (q : Fin 95) :
    kScore v37 v38 v39 v42 v50 v56 (ix2 r q)
      = Ideal.ofBits .f32 0xBF000000#32 * ((∑ c : Fin 512, v38 (ix2 r c) * v39 (ix2 c q))
            - Ideal.ofBits .f32 0x40000000#32 * (∑ c : Fin 512, v37 (ix2 r c) * v42 (ix2 c q)) + v50 (ix2 (0 : Fin 1) q))
          - v56 (ix2 (0 : Fin 1) q) - Ideal.ofBits .f32 0x43EB3F8E#32 := by
  unfold kScore
  show Ideal.ofBits .f32 0xBF000000#32 * ((matmul dot_S2048x512_S512x95_S2048x95_1_0_0_1_n_n none v38 _ (constant S2048x95 .f32 0x00000000#32) (ix2 r q))
        - Ideal.ofBits .f32 0x40000000#32 * (matmul dot_S2048x512_S512x95_S2048x95_1_0_0_1_n_n none v37 _ (constant S2048x95 .f32 0x00000000#32) (ix2 r q))
        + broadcastTo S2048x95 _ broadcasts_S1x95_S2048x95 (ix2 r q))
      - broadcastTo S2048x95 _ broadcasts_S1x95_S2048x95 (ix2 r q) - Ideal.ofBits .f32 0x43EB3F8E#32 = _
  rw [mm_apply, mm_apply, bcRow95_apply, bcRow95_apply, shapeCast_self, shapeCast_self, shapeCast_self, shapeCast_self]
  rfl

/-! ## The largest component of each class -/

theorem slice_apply (s : S2048x95.Idx → EReal) (o : Nat) (h : S2048x95.Slices ![0, o] S2048x19) (r : Fin 2048) (k : Fin 19) (q : Fin 95)
    (hq : q.val = o + k.val) : extractStridedSlice S2048x19 ![0, o] s h (ix2 r k) = s (ix2 r q) :=
  extractStridedSlice_apply _ s h (ix2 r k) (ix2 r q) (fun a => match a with
    | ⟨0, _⟩ => (by show r.val = 0 + r.val; omega)
    | ⟨1, _⟩ => hq)

def kMax (s : FVec Ideal S2048x95 .f32) : FVec Ideal S2048x19 .f32 :=
  maximumf (maximumf (maximumf (maximumf (extractStridedSlice S2048x19 ![0, 0] s slices_S2048x95_o0_0_S2048x19)
    (extractStridedSlice S2048x19 ![0, 19] s slices_S2048x95_o0_19_S2048x19))
    (extractStridedSlice S2048x19 ![0, 38] s slices_S2048x95_o0_38_S2048x19))
    (extractStridedSlice S2048x19 ![0, 57] s slices_S2048x95_o0_57_S2048x19))
    (extractStridedSlice S2048x19 ![0, 76] s slices_S2048x95_o0_76_S2048x19)

theorem kMax_apply (s : FVec Ideal S2048x95 .f32) (r : Fin 2048) (k : Fin 19) :
    kMax s (ix2 r k) = Cert.Spec.max5 (fun m => s (ix2 r (comp m k))) := by
  unfold kMax Cert.Spec.max5
  show max (max (max (max (extractStridedSlice S2048x19 ![0, 0] s slices_S2048x95_o0_0_S2048x19 (ix2 r k))
      (extractStridedSlice S2048x19 ![0, 19] s slices_S2048x95_o0_19_S2048x19 (ix2 r k)))
      (extractStridedSlice S2048x19 ![0, 38] s slices_S2048x95_o0_38_S2048x19 (ix2 r k)))
      (extractStridedSlice S2048x19 ![0, 57] s slices_S2048x95_o0_57_S2048x19 (ix2 r k)))
      (extractStridedSlice S2048x19 ![0, 76] s slices_S2048x95_o0_76_S2048x19 (ix2 r k))
    = max (max (max (max (s (ix2 r (comp 0 k))) (s (ix2 r (comp 1 k)))) (s (ix2 r (comp 2 k)))) (s (ix2 r (comp 3 k)))) (s (ix2 r (comp 4 k)))
  rw [slice_apply s 0 _ r k (comp 0 k) (by show 0 * 19 + k.val = 0 + k.val; omega),
    slice_apply s 19 _ r k (comp 1 k) (by show 1 * 19 + k.val = 19 + k.val; omega),
    slice_apply s 38 _ r k (comp 2 k) (by show 2 * 19 + k.val = 38 + k.val; omega),
    slice_apply s 57 _ r k (comp 3 k) (by show 3 * 19 + k.val = 57 + k.val; omega),
    slice_apply s 76 _ r k (comp 4 k) (by show 4 * 19 + k.val = 76 + k.val; omega)]

/-! ## The layer norm over the classes and the way back to [19,16,128] -/

theorem sum1_apply (a : FVec Ideal S2048x19 .f32) (r : Fin 2048) :
    multiReduction .add [1] S2048 a 0x00000000#32 reduces_S2048x19_S2048 (.inl rfl) rfl (ix1 r) = ∑ k : Fin 19, a (ix2 r k) := by
  refine (Ideal.multiReduction_add_single a 0x00000000#32 reduces_S2048x19_S2048 (.inl rfl) rfl (ix1 r)).trans ?_
  refine Finset.sum_congr rfl fun (k : Fin 19) _ => ?_
  exact congrArg a (funext fun b => Fin.ext (by match b with | ⟨0, _⟩ => rfl | ⟨1, _⟩ => rfl))

theorem colUp_apply (u : S2048.Idx → EReal) (r : Fin 2048) :
    shapeCast S2048x1 u shapeCasts_S2048_S2048x1 (ix2 r (0 : Fin 1)) = u (ix1 r) := by
  refine shapeCast_apply _ _ _ (ix1 r) ?_
  rw [Shape.rowMajor_val_one, Shape.rowMajor_val_two]
  show r.val = r.val * 1 + 0
  omega

theorem bcCol_apply (u : S2048x1.Idx → EReal) (r : Fin 2048) (k : Fin 19) :
    broadcastTo S2048x19 u broadcasts_S2048x1_S2048x19 (ix2 r k) = u (ix2 r (0 : Fin 1)) :=
  broadcastTo_apply _ _ _ (ix2 r (0 : Fin 1)) (fun a => match a with | ⟨0, _⟩ => rfl | ⟨1, _⟩ => rfl)

theorem bcRow19_apply (u : S1x19.Idx → EReal) (r : Fin 2048) (k : Fin 19) :
    broadcastTo S2048x19 u broadcasts_S1x19_S2048x19 (ix2 r k) = u (ix2 (0 : Fin 1) k) :=
  broadcastTo_apply _ _ _ (ix2 (0 : Fin 1) k) (fun a => match a with | ⟨0, _⟩ => rfl | ⟨1, _⟩ => rfl)

def kRowMean (a : FVec Ideal S2048x19 .f32) : FVec Ideal S2048x1 .f32 :=
  divf (shapeCast S2048x1 (multiReduction .add [1] S2048 a 0x00000000#32 reduces_S2048x19_S2048 (.inl rfl) rfl) shapeCasts_S2048_S2048x1)
    (broadcast S2048x1 (Scalar.ofBits .f32 0x41980000#32))

def kDk (a : FVec Ideal S2048x19 .f32) : FVec Ideal S2048x19 .f32 :=
  subf a (broadcastTo S2048x19 (kRowMean a) broadcasts_S2048x1_S2048x19)

def kAff (v76 : FVec Ideal S2048x19 .f32) (v81 v82 : FVec Ideal S2048x1 .f32) (v87 v91 : Vec Ideal S1x19 .f32) : FVec Ideal S2048x19 .f32 :=
  addf (mulf (mulf v76 (broadcastTo S2048x19 (rsqrt (addf v81 v82)) broadcasts_S2048x1_S2048x19))
      (broadcastTo S2048x19 (shapeCast S1x19 v87 shapeCasts_S1x19_S1x19) broadcasts_S1x19_S2048x19))
    (broadcastTo S2048x19 (shapeCast S1x19 v91 shapeCasts_S1x19_S1x19) broadcasts_S1x19_S2048x19)

theorem pay5_eq (v37 v38 : FVec Ideal S2048x512 .bf16) (v39 v42 : Vec Ideal S512x95 .f32) (v50 v56 : Vec Ideal S1x95 .f32) :
    k0_pay5 (F := Ideal) v37 v38 v39 v42 v50 v56 = kDk (kMax (kScore v37 v38 v39 v42 v50 v56)) := rfl

theorem pay6_eq (v37 v38 : FVec Ideal S2048x512 .bf16) (v39 v42 : Vec Ideal S512x95 .f32) (v50 v56 : Vec Ideal S1x95 .f32) :
    k0_pay6 (F := Ideal) v37 v38 v39 v42 v50 v56
      = kRowMean (mulf (k0_pay5 (F := Ideal) v37 v38 v39 v42 v50 v56) (k0_pay5 (F := Ideal) v37 v38 v39 v42 v50 v56)) := rfl

theorem pay1_eq (v76 : FVec Ideal S2048x19 .f32) (v81 v82 : FVec Ideal S2048x1 .f32) (v87 v91 : Vec Ideal S1x19 .f32) :
    k0_pay1 (F := Ideal) v76 v81 v82 v87 v91
      = shapeCast S1x19x16x128 (transpose S19x16x128 [2, 0, 1] (shapeCast S16x128x19 (kAff v76 v81 v82 v87 v91) shapeCasts_S2048x19_S16x128x19)
          transposes_S16x128x19_p2_0_1_S19x16x128) shapeCasts_S19x16x128_S1x19x16x128 := rfl

theorem kRowMean_apply (a : FVec Ideal S2048x19 .f32) (r : Fin 2048) :
    kRowMean a (ix2 r (0 : Fin 1)) = Cert.Spec.mean19 (fun k => a (ix2 r k)) := by
  unfold kRowMean Cert.Spec.mean19
  show Ideal.div (shapeCast S2048x1 _ shapeCasts_S2048_S2048x1 (ix2 r (0 : Fin 1))) (Ideal.ofBits .f32 0x41980000#32) = _
  rw [colUp_apply, sum1_apply]

theorem kDk_apply (a : FVec Ideal S2048x19 .f32) (r : Fin 2048) (k : Fin 19) :
    kDk a (ix2 r k) = a (ix2 r k) - Cert.Spec.mean19 (fun k' => a (ix2 r k')) := by
  unfold kDk
  show a (ix2 r k) - broadcastTo S2048x19 (kRowMean a) broadcasts_S2048x1_S2048x19 (ix2 r k) = _
  rw [bcCol_apply, kRowMean_apply]

/-- Rows back to pixels, classes to the first axis. -/
theorem fromRows_apply (A : S2048x19.Idx → EReal) (hh : Fin 16) (w : Fin 128) (r : Fin 2048) (hr : r.val = hh.val * 128 + w.val) (k : Fin 19) :
    shapeCast S1x19x16x128 (transpose S19x16x128 [2, 0, 1] (shapeCast S16x128x19 A shapeCasts_S2048x19_S16x128x19)
        transposes_S16x128x19_p2_0_1_S19x16x128) shapeCasts_S19x16x128_S1x19x16x128 (ix4 (0 : Fin 1) k hh w)
      = A (ix2 r k) := by
  refine (shapeCast_apply _ _ (ix4 (0 : Fin 1) k hh w) (ix3 k hh w) ?_).trans ?_
  · rw [Shape.rowMajor_val_three, Shape.rowMajor_val_four]
    show (k.val * 16 + hh.val) * 128 + w.val = ((0 * 19 + k.val) * 16 + hh.val) * 128 + w.val
    omega
  refine (transpose_apply [2, 0, 1] _ _ (ix3 k hh w) (ix3 hh w k) (fun b => match b with | ⟨0, _⟩ => rfl | ⟨1, _⟩ => rfl | ⟨2, _⟩ => rfl)).trans ?_
  refine shapeCast_apply _ _ (ix3 hh w k) (ix2 r k) ?_
  rw [Shape.rowMajor_val_two, Shape.rowMajor_val_three]
  show r.val * 19 + k.val = (hh.val * 128 + w.val) * 19 + k.val
  rw [hr]

/-- The class layer norm of a row of class scores, as the body computes it. -/
theorem classNorm_apply (a : FVec Ideal S2048x19 .f32) (v87 v91 : Vec Ideal S1x19 .f32) (r : Fin 2048) (k : Fin 19) :
    kAff (kDk a) (kRowMean (mulf (kDk a) (kDk a))) (k0_pay7 (F := Ideal)) v87 v91 (ix2 r k)
      = Cert.Spec.cnorm (fun k' => a (ix2 r k')) (fun k' => v87 (ix2 (0 : Fin 1) k')) (fun k' => v91 (ix2 (0 : Fin 1) k')) k := by
  unfold kAff Cert.Spec.cnorm
  show kDk a (ix2 r k) * broadcastTo S2048x19 (rsqrt (addf (kRowMean (mulf (kDk a) (kDk a))) (k0_pay7 (F := Ideal)))) broadcasts_S2048x1_S2048x19 (ix2 r k)
        * broadcastTo S2048x19 (shapeCast S1x19 v87 shapeCasts_S1x19_S1x19) broadcasts_S1x19_S2048x19 (ix2 r k)
      + broadcastTo S2048x19 (shapeCast S1x19 v91 shapeCasts_S1x19_S1x19) broadcasts_S1x19_S2048x19 (ix2 r k) = _
  rw [bcCol_apply, bcRow19_apply, bcRow19_apply, shapeCast_self, shapeCast_self, kDk_apply]
  show (a (ix2 r k) - _) * Ideal.rsqrt (kRowMean (mulf (kDk a) (kDk a)) (ix2 r (0 : Fin 1)) + Ideal.ofBits .f32 0x3727C5AC#32) * _ + _ = _
  rw [kRowMean_apply]
  simp only [mulf_apply, kDk_apply]
  rfl

/-! ## The whole body at an index of its output block -/

/-- A component's score as the body forms it from the tables it loads: column q of the two [512,95] tables and
    of the two rows of 95. -/
def bScore (f : Fin 512 → EReal) (x1 x2 : S512x95.Idx → EReal) (x3 x4 : S1x95.Idx → EReal) (q : Fin 95) : EReal :=
  Ideal.ofBits .f32 0xBF000000#32 * ((∑ c : Fin 512, f c * f c * x1 (ix2 c q))
      - Ideal.ofBits .f32 0x40000000#32 * (∑ c : Fin 512, f c * x2 (ix2 c q)) + x3 (ix2 (0 : Fin 1) q))
    - x4 (ix2 (0 : Fin 1) q)

/-- The part of the body after the features: from the rows of features (and of their squares) to the stored block. -/
theorem tail_apply (v37 v38 : FVec Ideal S2048x512 .bf16) (x1 x2 : Vec Ideal S512x95 .f32) (x3 x4 : Vec Ideal S1x95 .f32)
    (x7 x8 : Vec Ideal S1x19 .f32) (k : Fin 19) (hh : Fin 16) (w : Fin 128) (r : Fin 2048) (hr : r.val = hh.val * 128 + w.val) :
    k0_pay1 (F := Ideal) (k0_pay5 v37 v38 x1 x2 x3 x4) (k0_pay6 v37 v38 x1 x2 x3 x4) (k0_pay7 (F := Ideal)) x7 x8 (ix4 (0 : Fin 1) k hh w)
      = Cert.Spec.cnorm (fun k' => Cert.Spec.max5 (fun mm => kScore v37 v38 x1 x2 x3 x4 (ix2 r (comp mm k'))))
          (fun k' => x7 (ix2 (0 : Fin 1) k')) (fun k' => x8 (ix2 (0 : Fin 1) k')) k := by
  rw [pay1_eq, fromRows_apply _ hh w r hr k, pay6_eq, pay5_eq, classNorm_apply]
  refine congrArg (fun f => Cert.Spec.cnorm f (fun k' => x7 (ix2 (0 : Fin 1) k')) (fun k' => x8 (ix2 (0 : Fin 1) k')) k) (funext fun k' => ?_)
  exact kMax_apply _ r k'

/-- What the body stores at (0, k, hh, w) of its output block: the class layer norm of the row of class scores of
    pixel (hh, w), each class score the largest of its five components' scores. -/
theorem body_apply (x0 : Vec Ideal S1x512x16x128 .f32) (x1 x2 : Vec Ideal S512x95 .f32) (x3 x4 : Vec Ideal S1x95 .f32)
    (x5 x6 : Vec Ideal S512x1x1 .f32) (x7 x8 : Vec Ideal S1x19 .f32) (k : Fin 19) (hh : Fin 16) (w : Fin 128) :
    k0_pay1 (F := Ideal) (k0_pay5 (k0_pay3 x0 x5 x6) (k0_pay4 x0 x5 x6) x1 x2 x3 x4)
        (k0_pay6 (k0_pay3 x0 x5 x6) (k0_pay4 x0 x5 x6) x1 x2 x3 x4) (k0_pay7 (F := Ideal)) x7 x8 (ix4 (0 : Fin 1) k hh w)
      = Cert.Spec.cnorm (fun k' => Cert.Spec.max5 (fun mm =>
            bScore (Cert.Spec.feat (fun c' => x0 (ix4 (0 : Fin 1) c' hh w)) (fun c' => x5 (ix3 c' (0 : Fin 1) (0 : Fin 1)))
                (fun c' => x6 (ix3 c' (0 : Fin 1) (0 : Fin 1)))) x1 x2 x3 x4 (comp mm k')
              - Ideal.ofBits .f32 0x43EB3F8E#32))
          (fun k' => x7 (ix2 (0 : Fin 1) k')) (fun k' => x8 (ix2 (0 : Fin 1) k')) k := by
  have hlt : hh.val * 128 + w.val < 2048 := by have := hh.isLt; have := w.isLt; omega
  refine (tail_apply (k0_pay3 x0 x5 x6) (k0_pay4 x0 x5 x6) x1 x2 x3 x4 x7 x8 k hh w ⟨hh.val * 128 + w.val, hlt⟩ rfl).trans ?_
  refine congrArg (fun f => Cert.Spec.cnorm f (fun k' => x7 (ix2 (0 : Fin 1) k')) (fun k' => x8 (ix2 (0 : Fin 1) k')) k) (funext fun k' => ?_)
  refine congrArg Cert.Spec.max5 (funext fun mm => ?_)
  rw [kScore_apply]
  unfold bScore
  have h3 : ∀ c : Fin 512, k0_pay3 (F := Ideal) x0 x5 x6 (ix2 (⟨hh.val * 128 + w.val, hlt⟩ : Fin 2048) c)
      = Cert.Spec.feat (fun c' => x0 (ix4 (0 : Fin 1) c' hh w)) (fun c' => x5 (ix3 c' (0 : Fin 1) (0 : Fin 1)))
          (fun c' => x6 (ix3 c' (0 : Fin 1) (0 : Fin 1))) c := fun c => pay2_apply x0 x5 x6 hh w _ rfl c
  have h4 : ∀ c : Fin 512, k0_pay4 (F := Ideal) x0 x5 x6 (ix2 (⟨hh.val * 128 + w.val, hlt⟩ : Fin 2048) c)
      = Cert.Spec.feat (fun c' => x0 (ix4 (0 : Fin 1) c' hh w)) (fun c' => x5 (ix3 c' (0 : Fin 1) (0 : Fin 1)))
          (fun c' => x6 (ix3 c' (0 : Fin 1) (0 : Fin 1))) c
        * Cert.Spec.feat (fun c' => x0 (ix4 (0 : Fin 1) c' hh w)) (fun c' => x5 (ix3 c' (0 : Fin 1) (0 : Fin 1)))
          (fun c' => x6 (ix3 c' (0 : Fin 1) (0 : Fin 1))) c := fun c => by
    show k0_pay2 (F := Ideal) x0 x5 x6 (ix2 _ c) * k0_pay2 (F := Ideal) x0 x5 x6 (ix2 _ c) = _
    rw [pay2_apply x0 x5 x6 hh w _ rfl c]
  simp only [h3, h4]

end Cert.KernelIdeal.Body

end
-- ==== Proof.KValue.lean ====
/-
  From the kernel's blocks to its result array.

  The grid has 4 · 8 points (b, ht); point (b, ht) reads rows 16·ht … 16·ht + 15 of image b (all 512 channels,
  all 128 columns), reads the small tables whole, and writes rows 16·ht … 16·ht + 15 of the 19 class planes of
  image b. So entry (b, k, h, w) of the result is written by point (b, h / 16), and it is the specification's
  output for the pixel (b, h, w), class k, with the additive constant the kernel's literal.
-/
import proofs.«172692_j24696061952473_2_alg».proof.Proof.Gen.KernelIdeal.Frame
import proofs.«172692_j24696061952473_2_alg».proof.Proof.KHost
import proofs.«172692_j24696061952473_2_alg».proof.Proof.KBody
import Idealize.ShloMosaic.Lib.Pipeline.Value

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.HostTables Cert.KernelIdeal.Body

variable (m : (ℓ : Loc nD τ sig) → Buf (Elt Ideal) ℓ) (ρ : Dev nD → PrngReg)

/-- The specification's output at the pixel and class an index of the result names, the additive constant `s`. -/
def result (x0 : S4x512x128x128.Idx → EReal) (x1 x2 : S19x5x512.Idx → EReal) (x3 x4 : S512.Idx → EReal) (x5 x6 : S19.Idx → EReal)
    (s : EReal) : S4x19x128x128.Idx → EReal := fun i =>
  Cert.Spec.out (fun ch => x0 (ix4 (⟨(i 0).val, (i 0).isLt⟩ : Fin 4) ch (⟨(i 2).val, (i 2).isLt⟩ : Fin 128) (⟨(i 3).val, (i 3).isLt⟩ : Fin 128)))
    (fun ch => x3 (ix1 ch)) (fun ch => x4 (ix1 ch)) (fun k mm ch => x1 (ix3 k mm ch)) (fun k mm ch => x2 (ix3 k mm ch))
    (fun k => x5 (ix1 k)) (fun k => x6 (ix1 k)) s (⟨(i 1).val, (i 1).isLt⟩ : Fin 19)

/-- The array the kernel leaves, as a function of the argument arrays. -/
def G (c : Dev nD) : S4x19x128x128.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (Ideal.ofBits .f32 0x43EB3F8E#32)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 32 grid points: the input image's block moves with the output's; every table's block
    index is zero. -/
theorem idx_facts : ∀ t : Fin cfg0.N,
    win0_0.index t (0 : Fin 4) = win0_9.index t (0 : Fin 4) ∧ win0_0.index t (1 : Fin 4) = 0
    ∧ win0_0.index t (2 : Fin 4) = win0_9.index t (2 : Fin 4) ∧ win0_0.index t (3 : Fin 4) = 0
    ∧ win0_9.index t (1 : Fin 4) = 0 ∧ win0_9.index t (3 : Fin 4) = 0
    ∧ win0_9.index t (0 : Fin 4) ≤ 3 ∧ win0_9.index t (2 : Fin 4) ≤ 7
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every (image, row-block) pair is some grid point's. -/
theorem idx_onto : ∀ (q0 : Fin 4) (q2 : Fin 8), ∃ t : Fin cfg0.N, win0_9.index t = ![q0.val, 0, q2.val, 0] :=
  (by decide +kernel : ∀ (q0 : Fin 4) (q2 : Fin 8), ∃ t : Fin grid0.N, win0_9.index t = ![q0.val, 0, q2.val, 0])

/-! ## Each window's block, read -/

theorem iblk1_apply (c : Dev nD) (t : Fin cfg0.N) (ch : Fin 512) (q : Fin 95) :
    iblk m c 1 t (ix2 ch q) = tab1 (m ((c : Thread nD τ).loc main_arg2)) (ix2 ch q) := by
  obtain ⟨-, -, -, -, -, -, -, -, e0, e1, -⟩ := idx_facts t
  refine Eq.trans ?_ (congrFun (V_v14 m c) (ix2 ch q))
  show (V m c main_v14 : S512x95.Idx → EReal) (((cfg0.win 1).blk t).view.emb (ix2 ch q)) = (V m c main_v14 : S512x95.Idx → EReal) (ix2 ch q)
  refine congrArg _ (funext fun a => Fin.ext ?_)
  match a with
  | ⟨0, _⟩ => show win0_1.index t (0 : Fin 2) * 512 + 1 * ch.val = ch.val; omega
  | ⟨1, _⟩ => show win0_1.index t (1 : Fin 2) * 95 + 1 * q.val = q.val; omega

theorem iblk2_apply (c : Dev nD) (t : Fin cfg0.N) (ch : Fin 512) (q : Fin 95) :
    iblk m c 2 t (ix2 ch q) = tab2 (m ((c : Thread nD τ).loc main_arg1)) (m ((c : Thread nD τ).loc main_arg2)) (ix2 ch q) := by
  obtain ⟨-, -, -, -, -, -, -, -, -, -, e0, e1, -⟩ := idx_facts t
  refine Eq.trans ?_ (congrFun (V_v16 m c) (ix2 ch q))
  show (V m c main_v16 : S512x95.Idx → EReal) (((cfg0.win 2).blk t).view.emb (ix2 ch q)) = (V m c main_v16 : S512x95.Idx → EReal) (ix2 ch q)
  refine congrArg _ (funext fun a => Fin.ext ?_)
  match a with
  | ⟨0, _⟩ => show win0_2.index t (0 : Fin 2) * 512 + 1 * ch.val = ch.val; omega
  | ⟨1, _⟩ => show win0_2.index t (1 : Fin 2) * 95 + 1 * q.val = q.val; omega

theorem iblk3_apply (c : Dev nD) (t : Fin cfg0.N) (q : Fin 95) :
    iblk m c 3 t (ix2 (0 : Fin 1) q) = tab3 (m ((c : Thread nD τ).loc main_arg1)) (m ((c : Thread nD τ).loc main_arg2)) (ix2 (0 : Fin 1) q) := by
  obtain ⟨-, -, -, -, -, -, -, -, -, -, -, -, e0, e1, -⟩ := idx_facts t
  refine Eq.trans ?_ (congrFun (V_v20 m c) (ix2 (0 : Fin 1) q))
  show (V m c main_v20 : S1x95.Idx → EReal) (((cfg0.win 3).blk t).view.emb (ix2 (0 : Fin 1) q)) = (V m c main_v20 : S1x95.Idx → EReal) (ix2 (0 : Fin 1) q)
  refine congrArg _ (funext fun a => Fin.ext ?_)
  match a with
  | ⟨0, _⟩ => show win0_3.index t (0 : Fin 2) * 1 + 1 * 0 = 0; omega
  | ⟨1, _⟩ => show win0_3.index t (1 : Fin 2) * 95 + 1 * q.val = q.val; omega

theorem iblk4_apply (c : Dev nD) (t : Fin cfg0.N) (q : Fin 95) :
    iblk m c 4 t (ix2 (0 : Fin 1) q) = tab4 (m ((c : Thread nD τ).loc main_arg2)) (ix2 (0 : Fin 1) q) := by
  obtain ⟨-, -, -, -, -, -, -, -, -, -, -, -, -, -, e0, e1, -⟩ := idx_facts t
  refine Eq.trans ?_ (congrFun (V_v23 m c) (ix2 (0 : Fin 1) q))
  show (V m c main_v23 : S1x95.Idx → EReal) (((cfg0.win 4).blk t).view.emb (ix2 (0 : Fin 1) q)) = (V m c main_v23 : S1x95.Idx → EReal) (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 95 + 1 * q.val = q.val; omega

theorem iblk5_apply (c : Dev nD) (t : Fin cfg0.N) (ch : Fin 512) :
    iblk m c 5 t (ix3 ch (0 : Fin 1) (0 : Fin 1)) = ((m ((c : Thread nD τ).loc main_arg3)) : S512.Idx → EReal) (ix1 ch) := by
  obtain ⟨-, -, -, -, -, -, -, -, -, -, -, -, -, -, -, -, e0, e1, e2, -⟩ := idx_facts t
  refine Eq.trans ?_ ((congrFun (V_v24 m c) (ix3 ch (0 : Fin 1) (0 : Fin 1))).trans (col_apply _ ch))
  show (V m c main_v24 : S512x1x1.Idx → EReal) (((cfg0.win 5).blk t).view.emb (ix3 ch (0 : Fin 1) (0 : Fin 1))) = (V m c main_v24 : S512x1x1.Idx → EReal) (ix3 ch (0 : Fin 1) (0 : Fin 1))
  refine congrArg _ (funext fun a => Fin.ext ?_)
  match a with
  | ⟨0, _⟩ => show win0_5.index t (0 : Fin 3) * 512 + 1 * ch.val = ch.val; omega
  | ⟨1, _⟩ => show win0_5.index t (1 : Fin 3) * 1 + 1 * 0 = 0; omega
  | ⟨2, _⟩ => show win0_5.index t (2 : Fin 3) * 1 + 1 * 0 = 0; omega

theorem iblk6_apply (c : Dev nD) (t : Fin cfg0.N) (ch : Fin 512) :
    iblk m c 6 t (ix3 ch (0 : Fin 1) (0 : Fin 1)) = ((m ((c : Thread nD τ).loc main_arg4)) : S512.Idx → EReal) (ix1 ch) := by
  obtain ⟨-, -, -, -, -, -, -, -, -, -, -, -, -, -, -, -, -, -, -, e0, e1, e2, -⟩ := idx_facts t
  refine Eq.trans ?_ ((congrFun (V_v25 m c) (ix3 ch (0 : Fin 1) (0 : Fin 1))).trans (col_apply _ ch))
  show (V m c main_v25 : S512x1x1.Idx → EReal) (((cfg0.win 6).blk t).view.emb (ix3 ch (0 : Fin 1) (0 : Fin 1))) = (V m c main_v25 : S512x1x1.Idx → EReal) (ix3 ch (0 : Fin 1) (0 : Fin 1))
  refine congrArg _ (funext fun a => Fin.ext ?_)
  match a with
  | ⟨0, _⟩ => show win0_6.index t (0 : Fin 3) * 512 + 1 * ch.val = ch.val; omega
  | ⟨1, _⟩ => show win0_6.index t (1 : Fin 3) * 1 + 1 * 0 = 0; omega
  | ⟨2, _⟩ => show win0_6.index t (2 : Fin 3) * 1 + 1 * 0 = 0; omega

theorem iblk7_apply (c : Dev nD) (t : Fin cfg0.N) (k : Fin 19) :
    iblk m c 7 t (ix2 (0 : Fin 1) k) = ((m ((c : Thread nD τ).loc main_arg5)) : S19.Idx → EReal) (ix1 k) := by
  obtain ⟨-, -, -, -, -, -, -, -, -, -, -, -, -, -, -, -, -, -, -, -, -, -, e0, e1, -⟩ := idx_facts t
  refine Eq.trans ?_ ((congrFun (V_v26 m c) (ix2 (0 : Fin 1) k)).trans (row_apply _ k))
  show (V m c main_v26 : S1x19.Idx → EReal) (((cfg0.win 7).blk t).view.emb (ix2 (0 : Fin 1) k)) = (V m c main_v26 : S1x19.Idx → EReal) (ix2 (0 : Fin 1) k)
  refine congrArg _ (funext fun a => Fin.ext ?_)
  match a with
  | ⟨0, _⟩ => show win0_7.index t (0 : Fin 2) * 1 + 1 * 0 = 0; omega
  | ⟨1, _⟩ => show win0_7.index t (1 : Fin 2) * 19 + 1 * k.val = k.val; omega

theorem iblk8_apply (c : Dev nD) (t : Fin cfg0.N) (k : Fin 19) :
    iblk m c 8 t (ix2 (0 : Fin 1) k) = ((m ((c : Thread nD τ).loc main_arg6)) : S19.Idx → EReal) (ix1 k) := by
  obtain ⟨-, -, -, -, -, -, -, -, -, -, -, -, -, -, -, -, -, -, -, -, -, -, -, -, e0, e1⟩ := idx_facts t
  refine Eq.trans ?_ ((congrFun (V_v27 m c) (ix2 (0 : Fin 1) k)).trans (row_apply _ k))
  show (V m c main_v27 : S1x19.Idx → EReal) (((cfg0.win 8).blk t).view.emb (ix2 (0 : Fin 1) k)) = (V m c main_v27 : S1x19.Idx → EReal) (ix2 (0 : Fin 1) k)
  refine congrArg _ (funext fun a => Fin.ext ?_)
  match a with
  | ⟨0, _⟩ => show win0_8.index t (0 : Fin 2) * 1 + 1 * 0 = 0; omega
  | ⟨1, _⟩ => show win0_8.index t (1 : Fin 2) * 19 + 1 * k.val = k.val; omega

/-- The image block of point t: channel ch of pixel (hh, w) of the block is channel ch of pixel (16·ht + hh, w) of image b. -/
theorem iblk0_apply (c : Dev nD) (t : Fin cfg0.N) (ch : Fin 512) (hh : Fin 16) (w : Fin 128) (b : Fin 4) (h : Fin 128)
    (hb : b.val = win0_9.index t (0 : Fin 4)) (hh' : h.val = win0_9.index t (2 : Fin 4) * 16 + hh.val) :
    iblk m c 0 t (ix4 (0 : Fin 1) ch hh w) = ((m ((c : Thread nD τ).loc main_arg0)) : S4x512x128x128.Idx → EReal) (ix4 b ch h w) := by
  obtain ⟨e0, e1, e2, e3, -⟩ := idx_facts t
  refine Eq.trans ?_ (congrFun (V_main_arg0 m c) (ix4 b ch h w))
  show (V m c main_arg0 : S4x512x128x128.Idx → EReal) (((cfg0.win 0).blk t).view.emb (ix4 (0 : Fin 1) ch hh w)) = (V m c main_arg0 : S4x512x128x128.Idx → EReal) (ix4 b ch h w)
  refine congrArg _ (funext fun a => Fin.ext ?_)
  match a with
  | ⟨0, _⟩ => show win0_0.index t (0 : Fin 4) * 1 + 1 * 0 = b.val; omega
  | ⟨1, _⟩ => show win0_0.index t (1 : Fin 4) * 512 + 1 * ch.val = ch.val; omega
  | ⟨2, _⟩ => show win0_0.index t (2 : Fin 4) * 16 + 1 * hh.val = h.val; omega
  | ⟨3, _⟩ => show win0_0.index t (3 : Fin 4) * 128 + 1 * w.val = w.val; omega

/-! ## What a grid point writes back -/

/-- A component's score as the body forms it from the loaded tables is the specification's score of that component. -/
theorem bScore_eq (c : Dev nD) (t : Fin cfg0.N) (f : Fin 512 → EReal) (mm : Fin 5) (k' : Fin 19) :
    bScore f (iblk m c 1 t) (iblk m c 2 t) (iblk m c 3 t) (iblk m c 4 t) (comp mm k')
      = Cert.Spec.score f (Cert.Spec.unitize (fun ch => ((m ((c : Thread nD τ).loc main_arg1)) : S19x5x512.Idx → EReal) (ix3 k' mm ch)))
          (fun ch => ((m ((c : Thread nD τ).loc main_arg2)) : S19x5x512.Idx → EReal) (ix3 k' mm ch)) := by
  unfold bScore Cert.Spec.score
  rw [iblk3_apply, iblk4_apply, tab3_apply _ _ mm k' (comp mm k') rfl, tab4_apply _ mm k' (comp mm k') rfl]
  simp only [iblk1_apply, iblk2_apply, tab1_apply _ mm k' (comp mm k') rfl, tab2_apply _ _ mm k' (comp mm k') rfl]

/-- Point t writes block t of `G`. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz4]
  simp only [View.ld_unit_zero (S := S1x512x16x128) hz4, View.ld_unit_zero (S := S512x1x1) hz3, View.ld_unit_zero (S := S512x95) hz2,
    View.ld_unit_zero (S := S1x95) hz2, View.ld_unit_zero (S := S1x19) hz2]
  obtain ⟨e0, e1, e2, e3, e4, e5, e6, e7, -⟩ := idx_facts t
  funext y
  have hy0 : (y 0).val < 1 := (y 0).isLt
  have hy1 : (y 1).val < 19 := (y 1).isLt
  have hy2 : (y 2).val < 16 := (y 2).isLt
  have hy3 : (y 3).val < 128 := (y 3).isLt
  have ey : ((cfg0.win 9).xinj (grid0.coords t) y : S1x19x16x128.Idx)
      = ix4 (0 : Fin 1) (⟨(y 1).val, hy1⟩ : Fin 19) (⟨(y 2).val, hy2⟩ : Fin 16) (⟨(y 3).val, hy3⟩ : Fin 128) :=
    funext fun a => Fin.ext (by
      match a with
      | ⟨0, _⟩ => show (y 0).val = 0; omega
      | ⟨1, _⟩ => rfl
      | ⟨2, _⟩ => rfl
      | ⟨3, _⟩ => rfl)
  refine ((congrArg _ ey).trans (body_apply (iblk m c 0 t) (iblk m c 1 t) (iblk m c 2 t) (iblk m c 3 t) (iblk m c 4 t)
    (iblk m c 5 t) (iblk m c 6 t) (iblk m c 7 t) (iblk m c 8 t) ⟨(y 1).val, hy1⟩ ⟨(y 2).val, hy2⟩ ⟨(y 3).val, hy3⟩)).trans ?_
  show _ = G m c (((cfg0.win 9).blk t).view.emb y)
  have hi0 : ((((cfg0.win 9).blk t).view.emb y) 0).val = win0_9.index t (0 : Fin 4) := by
    show win0_9.index t (0 : Fin 4) * 1 + 1 * (y 0).val = _; omega
  have hi1 : ((((cfg0.win 9).blk t).view.emb y) 1).val = (y 1).val := by
    show win0_9.index t (1 : Fin 4) * 19 + 1 * (y 1).val = _; omega
  have hi2 : ((((cfg0.win 9).blk t).view.emb y) 2).val = win0_9.index t (2 : Fin 4) * 16 + (y 2).val := by
    show win0_9.index t (2 : Fin 4) * 16 + 1 * (y 2).val = _; omega
  have hi3 : ((((cfg0.win 9).blk t).view.emb y) 3).val = (y 3).val := by
    show win0_9.index t (3 : Fin 4) * 128 + 1 * (y 3).val = _; omega
  generalize ((cfg0.win 9).blk t).view.emb y = i at hi0 hi1 hi2 hi3
  unfold G result Cert.Spec.out Cert.Spec.classScore
  have hk : (⟨(i 1).val, (i 1).isLt⟩ : Fin 19) = ⟨(y 1).val, hy1⟩ := Fin.ext hi1
  have hw : (⟨(i 3).val, (i 3).isLt⟩ : Fin 128) = ⟨(y 3).val, hy3⟩ := Fin.ext hi3
  rw [hk, hw]
  simp only [iblk5_apply, iblk6_apply, iblk7_apply, iblk8_apply, bScore_eq,
    iblk0_apply m c t _ ⟨(y 2).val, hy2⟩ ⟨(y 3).val, hy3⟩ ⟨(i 0).val, (i 0).isLt⟩ ⟨(i 2).val, (i 2).isLt⟩ hi0 hi2]

/-- An index of the result is in point t's block iff each coordinate is in the block's range on its axis. -/
theorem mem_blk (t : Fin cfg0.N) (i : S4x19x128x128.Idx) :
    i ∈ ((cfg0.win 9).blk t).view.set ↔ ∀ a : Fin 4, win0_9.index t a * S1x19x16x128.size a ≤ (i a).val
      ∧ (i a).val < win0_9.index t a * S1x19x16x128.size a + S1x19x16x128.size a := by
  show i ∈ ((View.whole main_v28).slice (win0_9.rect t)).set ↔ _
  rw [View.set_slice_whole, Rect.mem_set_unit]
  exact Iff.rfl

/-- Every index of the result is in the block of the point (image, row / 16). -/
theorem cover (i : S4x19x128x128.Idx) : ∃ t : Fin cfg0.N, (cfg0.win 9).flush t = true ∧ i ∈ ((cfg0.win 9).blk t).view.set := by
  have hi0 : (i 0).val < 4 := (i 0).isLt
  have hi1 : (i 1).val < 19 := (i 1).isLt
  have hi2 : (i 2).val < 128 := (i 2).isLt
  have hi3 : (i 3).val < 128 := (i 3).isLt
  obtain ⟨t, ht⟩ := idx_onto ⟨(i 0).val, hi0⟩ ⟨(i 2).val / 16, by omega⟩
  have q0 : win0_9.index t (0 : Fin 4) = (i 0).val := congrFun ht 0
  have q1 : win0_9.index t (1 : Fin 4) = 0 := congrFun ht 1
  have q2 : win0_9.index t (2 : Fin 4) = (i 2).val / 16 := congrFun ht 2
  have q3 : win0_9.index t (3 : Fin 4) = 0 := congrFun ht 3
  refine ⟨t, flush0_9 t, ?_⟩
  rw [mem_blk]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 19 ≤ (i 1).val ∧ (i 1).val < win0_9.index t (1 : Fin 4) * 19 + 19; omega
  | ⟨2, _⟩ => show win0_9.index t (2 : Fin 4) * 16 ≤ (i 2).val ∧ (i 2).val < win0_9.index t (2 : Fin 4) * 16 + 16; omega
  | ⟨3, _⟩ => show win0_9.index t (3 : Fin 4) * 128 ≤ (i 3).val ∧ (i 3).val < win0_9.index t (3 : Fin 4) * 128 + 128; omega

/-- The result array after the run is `G`. -/
theorem final (c : Dev nD) : (dats m 0 c).arrAt 9 cfg0.N = G m c :=
  (dats m 0 c).arrAt_eq_of_cover 9 (G m c) (fun t _ => flushed_eq m c t) cover

/-- The kernel's run: it ends with the result array at `G` and the arguments as they were. -/
theorem run : θ_run defs (onTc (τ := τ) (main (F := Ideal))) ⟨m, fun _ => 0, ρ⟩ fun r => ∀ c : Dev nD,
      r.2.mem ((c : Thread nD τ).loc main_v28) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 9).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.KValue

end
-- ==== Proof.RefValue.lean ====
/- The reference program's result at an output index is the per-pixel specification: its operations, read one
   at a time at a row index, are the layer normalisation, the scaling to unit length, the component scores, the
   maximum over a class's components and the layer normalisation over the classes. -/
import proofs.«172692_j24696061952473_2_alg».proof.Proof.Gen.ReferenceIdeal.Read
import proofs.«172692_j24696061952473_2_alg».proof.Proof.Spec
import Idealize.ShloMosaic.Lib.ValueIdx

noncomputable section

namespace Cert.RefValue

open Idealize.ShloMosaic Idealize.ShloMosaic.ValueIdx Cert.ReferenceIdeal Cert.ReferenceIdeal.Gen Cert.ReferenceIdeal.Read

/-- The pixel a row of the flattened image is: row `n = (b·128 + h)·128 + w`. -/
abbrev pixB (n : Fin 65536) : Fin 4 := ⟨n.val / 16384, by have := n.isLt; omega⟩
abbrev pixH (n : Fin 65536) : Fin 128 := ⟨n.val / 128 % 128, by omega⟩
abbrev pixW (n : Fin 65536) : Fin 128 := ⟨n.val % 128, by omega⟩

/-- The channel vector of the pixel at row `n`. -/
def row (x0 : (⟨S4x512x128x128, .f32⟩ : BufTy).Contents (Elt Ideal)) (n : Fin 65536) : Fin 512 → EReal :=
  fun c => x0 (ix4 (pixB n) c (pixH n) (pixW n))

/-- The flattened image at row `n`, channel `c`. -/
theorem v1_at (x0 : (⟨S4x512x128x128, .f32⟩ : BufTy).Contents (Elt Ideal)) (n : Fin 65536) (c : Fin 512) :
    val_main_v1 (F := Ideal) x0 (ix2 n c) = row x0 n c := by
  rw [val_main_v1_apply, val_main_v0_apply]
  unfold row
  refine congrArg x0 (funext fun a => Fin.ext ?_)
  have hn := n.isLt
  have hc := c.isLt
  match a with
  | ⟨0, _⟩ => show (n.val * 512 + c.val) / 8388608 = n.val / 16384; omega
  | ⟨1, _⟩ => show (n.val * 512 + c.val) % 512 = c.val; omega
  | ⟨2, _⟩ => show (n.val * 512 + c.val) / 65536 % 128 = n.val / 128 % 128; omega
  | ⟨3, _⟩ => show (n.val * 512 + c.val) / 512 % 128 = n.val % 128; omega

/-- The channel mean of row `n`. -/
theorem v5_at (x0 : (⟨S4x512x128x128, .f32⟩ : BufTy).Contents (Elt Ideal)) (n : Fin 65536) (j : Fin 1) :
    val_main_v5 (F := Ideal) x0 (ix2 n j) = Cert.Spec.mean512 (row x0 n) := by
  simp only [val_main_v5_apply, val_main_v3_apply, val_main_v2_apply, val_main_v4_apply, val_main_cst_0_apply,
    val_main_cst_apply, Ideal.hostDivf_def, Ideal.ofBits_def, Ideal.ofBits_zero_f32, zero_add]
  unfold Cert.Spec.mean512
  refine congrArg (fun s => Ideal.div s _) (Finset.sum_congr rfl fun k _ => ?_)
  rw [← v1_at]
  refine congrArg _ (funext fun a => Fin.ext ?_)
  match a with
  | ⟨0, _⟩ => rfl
  | ⟨1, _⟩ => rfl

local macro "idx_eq" : tactic => `(tactic| (funext a; apply Fin.ext; fin_cases a <;> rfl))

/-- The centred value of row `n` at channel `c`. -/
theorem v7_at (x0 : (⟨S4x512x128x128, .f32⟩ : BufTy).Contents (Elt Ideal)) (n : Fin 65536) (c : Fin 512) :
    val_main_v7 (F := Ideal) x0 (ix2 n c) = row x0 n c - Cert.Spec.mean512 (row x0 n) := by
  have e : idx_main_v6 (ix2 n c) = ix2 n (0 : Fin 1) := by idx_eq
  simp only [val_main_v7_apply, val_main_v6_apply, Ideal.subf_def]
  rw [e, v1_at, v5_at]

/-- The same centred value, as the program recomputes it. -/
theorem v14_at (x0 : (⟨S4x512x128x128, .f32⟩ : BufTy).Contents (Elt Ideal)) (n : Fin 65536) (c : Fin 512) :
    val_main_v14 (F := Ideal) x0 (ix2 n c) = row x0 n c - Cert.Spec.mean512 (row x0 n) := by
  have e : idx_main_v13 (ix2 n c) = ix2 n (0 : Fin 1) := by idx_eq
  simp only [val_main_v14_apply, val_main_v13_apply, Ideal.subf_def]
  rw [e, v1_at, v5_at]

/-- The mean of the squared centred values of row `n`. -/
theorem v12_at (x0 : (⟨S4x512x128x128, .f32⟩ : BufTy).Contents (Elt Ideal)) (n : Fin 65536) (j : Fin 1) :
    val_main_v12 (F := Ideal) x0 (ix2 n j)
      = Ideal.div (∑ c', (row x0 n c' - Cert.Spec.mean512 (row x0 n)) * (row x0 n c' - Cert.Spec.mean512 (row x0 n)))
          (Ideal.ofBits .f32 0x44000000#32) := by
  simp only [val_main_v12_apply, val_main_v10_apply, val_main_v9_apply, val_main_v11_apply, val_main_cst_2_apply,
    val_main_cst_1_apply, Ideal.hostDivf_def, Ideal.ofBits_def, Ideal.ofBits_zero_f32, zero_add]
  refine congrArg (fun s => Ideal.div s _) (Finset.sum_congr rfl fun k _ => ?_)
  have e : idx_main_v9 (idx_main_v10 (ix2 n j)) k = ix2 n k := by idx_eq
  rw [e, val_main_v8_apply, Ideal.mulf_def, v7_at]

/-- The reciprocal standard deviation of row `n`, broadcast along the channels. -/
theorem v18_at (x0 : (⟨S4x512x128x128, .f32⟩ : BufTy).Contents (Elt Ideal)) (n : Fin 65536) (c : Fin 512) :
    val_main_v18 (F := Ideal) x0 (ix2 n c)
      = Ideal.rsqrt (Ideal.div (∑ c', (row x0 n c' - Cert.Spec.mean512 (row x0 n)) * (row x0 n c' - Cert.Spec.mean512 (row x0 n)))
          (Ideal.ofBits .f32 0x44000000#32) + Ideal.ofBits .f32 0x3727C5AC#32) := by
  have e : idx_main_v18 (ix2 n c) = ix2 n (0 : Fin 1) := by idx_eq
  simp only [val_main_v18_apply, val_main_v17_apply, val_main_v16_apply, val_main_v15_apply, val_main_cst_3_apply,
    Ideal.hostUnary_rsqrt_def, Ideal.addf_def, Ideal.ofBits_def]
  rw [e, v12_at]

/-- The layer-normalised row `n` at channel `c`. -/
theorem v25_at (x0 : (⟨S4x512x128x128, .f32⟩ : BufTy).Contents (Elt Ideal)) (x3 x4 : (⟨S512, .f32⟩ : BufTy).Contents (Elt Ideal))
    (n : Fin 65536) (c : Fin 512) :
    val_main_v25 (F := Ideal) x0 x3 x4 (ix2 n c)
      = Cert.Spec.lnorm (row x0 n) (fun c => x3 (ix1 c)) (fun c => x4 (ix1 c)) c := by
  have e3 : idx_main_v20 (idx_main_v21 (ix2 n c)) = ix1 c := by idx_eq
  have e4 : idx_main_v23 (idx_main_v24 (ix2 n c)) = ix1 c := by idx_eq
  simp only [val_main_v25_apply, val_main_v22_apply, val_main_v19_apply, val_main_v24_apply, val_main_v23_apply,
    val_main_v21_apply, val_main_v20_apply, Ideal.addf_def, Ideal.mulf_def]
  rw [e3, e4, v14_at, v18_at]
  rfl

/-- The floored Euclidean length of the layer-normalised row `n`. -/
theorem v28_at (x0 : (⟨S4x512x128x128, .f32⟩ : BufTy).Contents (Elt Ideal)) (x3 x4 : (⟨S512, .f32⟩ : BufTy).Contents (Elt Ideal))
    (n : Fin 65536) (j : Fin 1) :
    val_main_v28 (F := Ideal) x0 x3 x4 (ix2 n j)
      = max (Ideal.sqrt (∑ c', Cert.Spec.lnorm (row x0 n) (fun c => x3 (ix1 c)) (fun c => x4 (ix1 c)) c'
            * Cert.Spec.lnorm (row x0 n) (fun c => x3 (ix1 c)) (fun c => x4 (ix1 c)) c'))
          (Ideal.ofBits .f32 0x2B8CBCCC#32) := by
  simp only [val_main_v28_apply, val_main_v26_apply, val_main_v27_apply, val_main_cst_4_apply, val_main_call0_v2_apply,
    val_main_call0_v1_apply, val_main_call0_cst_apply, Ideal.maximumf_def, Ideal.hostUnary_sqrt_def, Ideal.ofBits_def,
    Ideal.ofBits_zero_f32, zero_add]
  refine congrArg (fun s => max (Ideal.sqrt s) _) (Finset.sum_congr rfl fun k _ => ?_)
  have e : idx_main_call0_v1 (idx_main_call0_v2 (ix2 n j)) k = ix2 n k := by idx_eq
  rw [e, val_main_call0_v0_apply, Ideal.mulf_def, v25_at]

/-- The feature vector of the pixel at row `n`. -/
theorem v30_at (x0 : (⟨S4x512x128x128, .f32⟩ : BufTy).Contents (Elt Ideal)) (x3 x4 : (⟨S512, .f32⟩ : BufTy).Contents (Elt Ideal))
    (n : Fin 65536) (c : Fin 512) :
    val_main_v30 (F := Ideal) x0 x3 x4 (ix2 n c)
      = Cert.Spec.feat (row x0 n) (fun c => x3 (ix1 c)) (fun c => x4 (ix1 c)) c := by
  have e : idx_main_v29 (ix2 n c) = ix2 n (0 : Fin 1) := by idx_eq
  simp only [val_main_v30_apply, val_main_v29_apply, Ideal.hostDivf_def]
  rw [e, v25_at, v28_at]
  rfl

/-- The class and the component a row `p = k·5 + m` of the flattened tables is. -/
abbrev cls (p : Fin 95) : Fin 19 := ⟨p.val / 5, by have := p.isLt; omega⟩
abbrev cmp (p : Fin 95) : Fin 5 := ⟨p.val % 5, by omega⟩

/-- The floored Euclidean length of the centre of class `k`, component `m`. -/
theorem v33_at (x1 : (⟨S19x5x512, .f32⟩ : BufTy).Contents (Elt Ideal)) (k : Fin 19) (m : Fin 5) (j : Fin 1) :
    val_main_v33 (F := Ideal) x1 (ix3 k m j)
      = max (Ideal.sqrt (∑ c', x1 (ix3 k m c') * x1 (ix3 k m c'))) (Ideal.ofBits .f32 0x2B8CBCCC#32) := by
  simp only [val_main_v33_apply, val_main_v31_apply, val_main_v32_apply, val_main_cst_5_apply, val_main_call1_v2_apply,
    val_main_call1_v1_apply, val_main_call1_cst_apply, Ideal.maximumf_def, Ideal.hostUnary_sqrt_def, Ideal.ofBits_def,
    Ideal.ofBits_zero_f32, zero_add]
  refine congrArg (fun s => max (Ideal.sqrt s) _) (Finset.sum_congr rfl fun c' _ => ?_)
  have e : idx_main_call1_v1 (idx_main_call1_v2 (ix3 k m j)) c' = ix3 k m c' := by idx_eq
  rw [e, val_main_call1_v0_apply, Ideal.mulf_def]

/-- The centre of class `k`, component `m`, scaled to unit length. -/
theorem v35_at (x1 : (⟨S19x5x512, .f32⟩ : BufTy).Contents (Elt Ideal)) (k : Fin 19) (m : Fin 5) (c : Fin 512) :
    val_main_v35 (F := Ideal) x1 (ix3 k m c) = Cert.Spec.unitize (fun c => x1 (ix3 k m c)) c := by
  have e : idx_main_v34 (ix3 k m c) = ix3 k m (0 : Fin 1) := by idx_eq
  simp only [val_main_v35_apply, val_main_v34_apply, Ideal.hostDivf_def]
  rw [e, v33_at]
  rfl

/-- Row `p` of a flattened table is the table at `p`'s class and component. -/
theorem tbl_idx (p : Fin 95) (c : Fin 512) : idx_main_v36 (ix2 p c) = ix3 (cls p) (cmp p) c := by
  refine funext fun a => Fin.ext ?_
  have hp := p.isLt
  have hc := c.isLt
  match a with
  | ⟨0, _⟩ => show (p.val * 512 + c.val) / 2560 = p.val / 5; omega
  | ⟨1, _⟩ => show (p.val * 512 + c.val) / 512 % 5 = p.val % 5; omega
  | ⟨2, _⟩ => show (p.val * 512 + c.val) % 512 = c.val; omega

/-- The flattened table of unit centres at row `p`. -/
theorem v36_at (x1 : (⟨S19x5x512, .f32⟩ : BufTy).Contents (Elt Ideal)) (p : Fin 95) (c : Fin 512) :
    val_main_v36 (F := Ideal) x1 (ix2 p c) = Cert.Spec.unitize (fun c => x1 (ix3 (cls p) (cmp p) c)) c := by
  rw [val_main_v36_apply, tbl_idx, v35_at]

/-- The flattened table of scales at row `p`. -/
theorem v37_at (x2 : (⟨S19x5x512, .f32⟩ : BufTy).Contents (Elt Ideal)) (p : Fin 95) (c : Fin 512) :
    val_main_v37 (F := Ideal) x2 (ix2 p c) = x2 (ix3 (cls p) (cmp p) c) := by
  rw [val_main_v37_apply]
  exact congrArg x2 (tbl_idx p c)

/-- The reciprocal squared scales at row `p`. -/
theorem v40_at (x2 : (⟨S19x5x512, .f32⟩ : BufTy).Contents (Elt Ideal)) (p : Fin 95) (c : Fin 512) :
    val_main_v40 (F := Ideal) x2 (ix2 p c) = Cert.Spec.ivar (fun c => x2 (ix3 (cls p) (cmp p) c)) c := by
  simp only [val_main_v40_apply, val_main_v39_apply, val_main_cst_6_apply, val_main_v38_apply, Ideal.hostDivf_def,
    Ideal.mulf_def, Ideal.ofBits_def]
  rw [v37_at]
  rfl

/-- The first sum of a component's score: Σ f² / σ². -/
theorem v43_at (x0 : (⟨S4x512x128x128, .f32⟩ : BufTy).Contents (Elt Ideal)) (x2 : (⟨S19x5x512, .f32⟩ : BufTy).Contents (Elt Ideal)) (x3 x4 : (⟨S512, .f32⟩ : BufTy).Contents (Elt Ideal)) (n : Fin 65536) (p : Fin 95) :
    val_main_v43 (F := Ideal) x0 x2 x3 x4 (ix2 n p)
      = ∑ c, Cert.Spec.feat (row x0 n) (fun c => x3 (ix1 c)) (fun c => x4 (ix1 c)) c * Cert.Spec.feat (row x0 n) (fun c => x3 (ix1 c)) (fun c => x4 (ix1 c)) c * Cert.Spec.ivar (fun c => x2 (ix3 (cls p) (cmp p) c)) c := by
  rw [val_main_v43_apply]
  refine Finset.sum_congr rfl fun k _ => ?_
  have el : lidx_main_v43 (ix2 n p) k = ix2 n k := by idx_eq
  have er : idx_main_v42 (ridx_main_v43 (ix2 n p) k) = ix2 p k := by idx_eq
  rw [el, val_main_v42_apply, er, val_main_v41_apply, Ideal.mulf_def, v30_at, v40_at]

/-- The second sum: Σ f · μ / σ². -/
theorem v46_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (n : Fin 65536) (p : Fin 95) :
    val_main_v46 (F := Ideal) x0 x1 x2 x3 x4 (ix2 n p)
      = ∑ c, Cert.Spec.feat (row x0 n) (fun c => x3 (ix1 c)) (fun c => x4 (ix1 c)) c * (Cert.Spec.unitize (fun c => x1 (ix3 (cls p) (cmp p) c)) c * Cert.Spec.ivar (fun c => x2 (ix3 (cls p) (cmp p) c)) c) := by
  rw [val_main_v46_apply]
  refine Finset.sum_congr rfl fun k _ => ?_
  have el : lidx_main_v46 (ix2 n p) k = ix2 n k := by idx_eq
  have er : idx_main_v45 (ridx_main_v46 (ix2 n p) k) = ix2 p k := by idx_eq
  rw [el, val_main_v45_apply, er, val_main_v44_apply, Ideal.mulf_def, v30_at, v36_at, v40_at]

/-- The third sum: Σ μ² / σ². -/
theorem v49_at (x1 x2 : (⟨S19x5x512, .f32⟩ : BufTy).Contents (Elt Ideal)) (p : Fin 95) :
    val_main_v49 (F := Ideal) x1 x2 (ix1 p)
      = ∑ c, Cert.Spec.unitize (fun c => x1 (ix3 (cls p) (cmp p) c)) c * Cert.Spec.unitize (fun c => x1 (ix3 (cls p) (cmp p) c)) c * Cert.Spec.ivar (fun c => x2 (ix3 (cls p) (cmp p) c)) c := by
  simp only [val_main_v49_apply, val_main_cst_7_apply, Ideal.ofBits_def, Ideal.ofBits_zero_f32, zero_add]
  refine Finset.sum_congr rfl fun k _ => ?_
  have e : idx_main_v49 (ix1 p) k = ix2 p k := by idx_eq
  rw [e, val_main_v48_apply, val_main_v47_apply, Ideal.mulf_def, Ideal.mulf_def, v36_at, v40_at]

/-- The sum of the logarithms of the scales. -/
theorem v57_at (x2 : (⟨S19x5x512, .f32⟩ : BufTy).Contents (Elt Ideal)) (p : Fin 95) :
    val_main_v57 (F := Ideal) x2 (ix1 p) = ∑ c, Ideal.log (x2 (ix3 (cls p) (cmp p) c)) := by
  simp only [val_main_v57_apply, val_main_cst_9_apply, Ideal.ofBits_def, Ideal.ofBits_zero_f32, zero_add]
  refine Finset.sum_congr rfl fun k _ => ?_
  have e : idx_main_v57 (ix1 p) k = ix2 p k := by idx_eq
  rw [e, val_main_v56_apply, Ideal.hostUnary_log_def, v37_at]

/-- The score of table row `p` at image row `n`, lowered by the additive constant. -/
theorem v67_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (n : Fin 65536) (p : Fin 95) :
    val_main_v67 (F := Ideal) x0 x1 x2 x3 x4 (ix2 n p)
      = Cert.Spec.score (Cert.Spec.feat (row x0 n) (fun c => x3 (ix1 c)) (fun c => x4 (ix1 c))) (Cert.Spec.unitize (fun c => x1 (ix3 (cls p) (cmp p) c))) (fun c => x2 (ix3 (cls p) (cmp p) c))
          - Ideal.ofBits .f32 0x43800000#32 * Ideal.log (Ideal.ofBits .f32 0x40C90FDB#32) := by
  have e54 : idx_main_v53 (idx_main_v54 (ix2 n p)) = ix1 p := by idx_eq
  have e63 : idx_main_v62 (idx_main_v63 (ix2 n p)) = ix1 p := by idx_eq
  simp only [val_main_v67_apply, val_main_v64_apply, val_main_v61_apply, val_main_v60_apply, val_main_cst_12_apply,
    val_main_v55_apply, val_main_v52_apply, val_main_v51_apply, val_main_v50_apply, val_main_cst_8_apply,
    val_main_v54_apply, val_main_v53_apply, val_main_v63_apply, val_main_v62_apply, val_main_v66_apply,
    val_main_v65_apply, val_main_v59_apply, val_main_cst_11_apply, val_main_v58_apply, val_main_cst_10_apply,
    Ideal.subf_def, Ideal.mulf_def, Ideal.addf_def, Ideal.hostUnary_log_def, Ideal.ofBits_def]
  rw [e54, e63, v43_at, v46_at, v49_at, v57_at]
  rfl

/-- The pattern `0xFF800000` denotes `-∞`. -/
theorem ofBits_neg_inf : Ideal.ofBits .f32 0xFF800000#32 = (⊥ : EReal) := by
  simp [Ideal.ofBits, Ideal.ieee]

/-- The reduced index `(n, k)` with the component `m` put back on the last axis is `(n, k, m)`. -/
theorem lift_ix3 (h : S65536x19x5.Reduces [2] S65536x19) (n : Fin 65536) (k : Fin 19) (m : Fin (S65536x19x5.size 2)) :
    h.lift (ix2 n k) m = ix3 n k (⟨m.val, m.isLt⟩ : Fin 5) := by
  funext c; apply Fin.ext
  fin_cases c <;> rfl

/-- The maximum over the last axis of a `[65536, 19, 5]` array, from `-∞`, at `(n, k)`: the largest of the five
    entries `(n, k, ·)`. -/
theorem reduce_max_at (y : FVec Ideal S65536x19x5 .f32) (n : Fin 65536) (k : Fin 19) :
    Host.reduce (FloatOps.maximumf (F := Ideal) (φ := .f32)) y (val_main_cst_13 (F := Ideal)) reducesTo_S65536x19x5_S65536x19_d2 h_S_ (ix2 n k)
      = Cert.Spec.max5 fun m => y (ix3 n k m) := by
  have h : S65536x19x5.Reduces [2] S65536x19 := by decide
  rw [Host.reduce_eq_fold_single FloatOps.maximumf y _ reducesTo_S65536x19x5_S65536x19_d2 h h_S_]
  have hf : (y ∘ h.lift (ix2 n k)) = fun m : Fin 5 => y (ix3 n k m) := funext fun m => congrArg y (lift_ix3 h n k m)
  have hi : (val_main_cst_13 (F := Ideal)) (Shape.Idx.first h_S_) = (⊥ : EReal) := ofBits_neg_inf
  refine Eq.trans ?_ (Cert.CentreShift.fold_max_bot fun m : Fin 5 => y (ix3 n k m))
  exact congrArg₂ (fun a f => Finset.fold max a f (Finset.univ : Finset (Fin 5))) hi hf

/-- The table row of class `k`, component `m`. -/
abbrev prow (k : Fin 19) (m : Fin 5) : Fin 95 := ⟨k.val * 5 + m.val, by have := k.isLt; have := m.isLt; omega⟩

theorem cls_prow (k : Fin 19) (m : Fin 5) : cls (prow k m) = k :=
  Fin.ext (by have := m.isLt; show (k.val * 5 + m.val) / 5 = k.val; omega)

theorem cmp_prow (k : Fin 19) (m : Fin 5) : cmp (prow k m) = m :=
  Fin.ext (by have := m.isLt; show (k.val * 5 + m.val) % 5 = m.val; omega)

/-- Entry `(n, k, m)` of the reshaped scores is entry `(n, k·5 + m)`. -/
theorem v68_idx (n : Fin 65536) (k : Fin 19) (m : Fin 5) : idx_main_v68 (ix3 n k m) = ix2 n (prow k m) := by
  refine funext fun a => Fin.ext ?_
  have hn := n.isLt
  have hk := k.isLt
  have hm := m.isLt
  match a with
  | ⟨0, _⟩ => show ((n.val * 19 + k.val) * 5 + m.val) / 95 = n.val; omega
  | ⟨1, _⟩ => show ((n.val * 19 + k.val) * 5 + m.val) % 95 = k.val * 5 + m.val; omega

/-- The score of class `k` at image row `n`. -/
theorem v69_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (n : Fin 65536) (k : Fin 19) :
    val_main_v69 (F := Ideal) x0 x1 x2 x3 x4 (ix2 n k)
      = Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)) k := by
  refine (reduce_max_at (val_main_v68 (F := Ideal) x0 x1 x2 x3 x4) n k).trans ?_
  unfold Cert.Spec.classScore
  refine congrArg Cert.Spec.max5 (funext fun m => ?_)
  rw [val_main_v68_apply, v68_idx, v67_at, cls_prow, cmp_prow]

/-- The mean class score of row `n`. -/
theorem v73_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (n : Fin 65536) (j : Fin 1) :
    val_main_v73 (F := Ideal) x0 x1 x2 x3 x4 (ix2 n j) = Cert.Spec.mean19 (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32))) := by
  simp only [val_main_v73_apply, val_main_v71_apply, val_main_v70_apply, val_main_v72_apply, val_main_cst_15_apply,
    val_main_cst_14_apply, Ideal.hostDivf_def, Ideal.ofBits_def, Ideal.ofBits_zero_f32, zero_add]
  have e : ∀ k : Fin 19, idx_main_v70 (idx_main_v71 (ix2 n j)) k = ix2 n k := fun k => by idx_eq
  simp only [e, v69_at]
  rfl

/-- The centred class score of row `n`, class `k`. -/
theorem v75_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (n : Fin 65536) (k : Fin 19) :
    val_main_v75 (F := Ideal) x0 x1 x2 x3 x4 (ix2 n k)
      = Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)) k - Cert.Spec.mean19 (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32))) := by
  have e : idx_main_v74 (ix2 n k) = ix2 n (0 : Fin 1) := by idx_eq
  rw [val_main_v75_apply, val_main_v74_apply, Ideal.subf_def, e, v69_at, v73_at]

/-- The same centred class score, as the program recomputes it. -/
theorem v82_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (n : Fin 65536) (k : Fin 19) :
    val_main_v82 (F := Ideal) x0 x1 x2 x3 x4 (ix2 n k)
      = Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)) k - Cert.Spec.mean19 (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32))) := by
  have e : idx_main_v81 (ix2 n k) = ix2 n (0 : Fin 1) := by idx_eq
  rw [val_main_v82_apply, val_main_v81_apply, Ideal.subf_def, e, v69_at, v73_at]

/-- The mean of the squared centred class scores of row `n`. -/
theorem v80_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (n : Fin 65536) (j : Fin 1) :
    val_main_v80 (F := Ideal) x0 x1 x2 x3 x4 (ix2 n j)
      = Ideal.div (∑ k', (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)) k' - Cert.Spec.mean19 (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)))) * (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)) k' - Cert.Spec.mean19 (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)))))
          (Ideal.ofBits .f32 0x41980000#32) := by
  have hs : (∑ k : Fin 19, val_main_v76 (F := Ideal) x0 x1 x2 x3 x4 (idx_main_v77 (idx_main_v78 (ix2 n j)) k))
      = ∑ k', (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)) k' - Cert.Spec.mean19 (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)))) * (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)) k' - Cert.Spec.mean19 (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)))) :=
    Finset.sum_congr rfl fun k _ => by
      have e : idx_main_v77 (idx_main_v78 (ix2 n j)) k = ix2 n k := by idx_eq
      rw [e, val_main_v76_apply, Ideal.mulf_def, v75_at]
  rw [val_main_v80_apply, val_main_v78_apply, val_main_v77_apply, val_main_v79_apply, val_main_cst_17_apply,
    val_main_cst_16_apply, Ideal.hostDivf_def, hs, Ideal.ofBits_def, Ideal.ofBits_def, Ideal.ofBits_zero_f32, zero_add]

/-- The reciprocal standard deviation of the class scores of row `n`, broadcast along the classes. -/
theorem v86_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (n : Fin 65536) (k : Fin 19) :
    val_main_v86 (F := Ideal) x0 x1 x2 x3 x4 (ix2 n k)
      = Ideal.rsqrt (Ideal.div (∑ k', (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)) k' - Cert.Spec.mean19 (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)))) * (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)) k' - Cert.Spec.mean19 (Cert.Spec.classScore (row x0 n) (fun c => x3 (ix1 c)) (fun c => x4 (ix1 c)) (fun k m c => x1 (ix3 k m c)) (fun k m c => x2 (ix3 k m c)) (Ideal.ofBits .f32 0x43800000#32 * Ideal.log (Ideal.ofBits .f32 0x40C90FDB#32)))))
          (Ideal.ofBits .f32 0x41980000#32) + Ideal.ofBits .f32 0x3727C5AC#32) := by
  have e : idx_main_v86 (ix2 n k) = ix2 n (0 : Fin 1) := by idx_eq
  rw [val_main_v86_apply, e, val_main_v85_apply, val_main_v84_apply, val_main_v83_apply, val_main_cst_18_apply,
    Ideal.hostUnary_rsqrt_def, Ideal.addf_def, Ideal.ofBits_def, v80_at]

/-- Layer normalisation over the classes, written out. -/
theorem cnorm_def (a g b : Fin 19 → EReal) (k : Fin 19) :
    Cert.Spec.cnorm a g b k
      = (a k - Cert.Spec.mean19 a) * Ideal.rsqrt (Ideal.div (∑ k', (a k' - Cert.Spec.mean19 a) * (a k' - Cert.Spec.mean19 a))
          (Ideal.ofBits .f32 0x41980000#32) + Ideal.ofBits .f32 0x3727C5AC#32) * g k + b k := rfl

/-- The layer-normalised class scores of row `n`: the specification's output at that pixel. -/
theorem v93_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (x5 x6 : (⟨S19, .f32⟩ : BufTy).Contents (Elt Ideal)) (n : Fin 65536) (k : Fin 19) :
    val_main_v93 (F := Ideal) x0 x1 x2 x3 x4 x5 x6 (ix2 n k)
      = Cert.Spec.out (row x0 n) (fun c => x3 (ix1 c)) (fun c => x4 (ix1 c)) (fun k m c => x1 (ix3 k m c))
          (fun k m c => x2 (ix3 k m c)) (fun k => x5 (ix1 k)) (fun k => x6 (ix1 k))
          (Ideal.ofBits .f32 0x43800000#32 * Ideal.log (Ideal.ofBits .f32 0x40C90FDB#32)) k := by
  have e5 : idx_main_v88 (idx_main_v89 (ix2 n k)) = ix1 k := by idx_eq
  have e6 : idx_main_v91 (idx_main_v92 (ix2 n k)) = ix1 k := by idx_eq
  rw [val_main_v93_apply, val_main_v90_apply, val_main_v87_apply, val_main_v92_apply, val_main_v91_apply,
    val_main_v89_apply, val_main_v88_apply, Ideal.addf_def, Ideal.mulf_def, Ideal.mulf_def, e5, e6, v82_at, v86_at]
  unfold Cert.Spec.out
  rw [cnorm_def]

/-- The row of the flattened image that pixel `(b, h, w)` is. -/
abbrev pixRow (b : Fin 4) (h w : Fin 128) : Fin 65536 :=
  ⟨(b.val * 128 + h.val) * 128 + w.val, by have := b.isLt; have := h.isLt; have := w.isLt; omega⟩

theorem row_pixRow (x0 : (⟨S4x512x128x128, .f32⟩ : BufTy).Contents (Elt Ideal)) (b : Fin 4) (h w : Fin 128) :
    row x0 (pixRow b h w) = fun c => x0 (ix4 b c h w) := by
  have hb := b.isLt
  have hh := h.isLt
  have hw := w.isLt
  have eb : pixB (pixRow b h w) = b := Fin.ext (by show ((b.val * 128 + h.val) * 128 + w.val) / 16384 = b.val; omega)
  have eh : pixH (pixRow b h w) = h := Fin.ext (by show ((b.val * 128 + h.val) * 128 + w.val) / 128 % 128 = h.val; omega)
  have ew : pixW (pixRow b h w) = w := Fin.ext (by show ((b.val * 128 + h.val) * 128 + w.val) % 128 = w.val; omega)
  unfold row
  rw [eb, eh, ew]

/-- Output entry `(b, k, h, w)` is entry `(n, k)` of the normalised class scores, `n` the pixel's row. -/
theorem out_idx (b : Fin 4) (k : Fin 19) (h w : Fin 128) :
    idx_main_v94 (idx_main_v95 (ix4 b k h w)) = ix2 (pixRow b h w) k := by
  refine funext fun a => Fin.ext ?_
  have hb := b.isLt
  have hk := k.isLt
  have hh := h.isLt
  have hw := w.isLt
  match a with
  | ⟨0, _⟩ => show (((b.val * 128 + h.val) * 128 + w.val) * 19 + k.val) / 19 = (b.val * 128 + h.val) * 128 + w.val; omega
  | ⟨1, _⟩ => show (((b.val * 128 + h.val) * 128 + w.val) * 19 + k.val) % 19 = k.val; omega

/-- The reference's result at `(b, k, h, w)` is the specification's output for the pixel `(b, h, w)`, class `k`. -/
theorem ref_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (x5 x6 : (⟨S19, .f32⟩ : BufTy).Contents (Elt Ideal)) (b : Fin 4) (k : Fin 19) (h w : Fin 128) :
    val_main_v95 (F := Ideal) x0 x1 x2 x3 x4 x5 x6 (ix4 b k h w)
      = Cert.Spec.out (fun c => x0 (ix4 b c h w)) (fun c => x3 (ix1 c)) (fun c => x4 (ix1 c))
          (fun k m c => x1 (ix3 k m c)) (fun k m c => x2 (ix3 k m c))
          (fun k => x5 (ix1 k)) (fun k => x6 (ix1 k))
          (Ideal.ofBits .f32 0x43800000#32 * Ideal.log (Ideal.ofBits .f32 0x40C90FDB#32)) k := by
  rw [val_main_v95_apply, val_main_v94_apply, out_idx, v93_at, row_pixRow]

end Cert.RefValue

end
-- ==== Proof.lean ====
/-
  A per-pixel Gaussian-mixture head: the kernel against its reference, on the extended reals.

  Both programs normalise each pixel's 512 channels (layer norm, then unit length), score it against
  19 · 5 mixture components (−1/2 of the Mahalanobis distance by the quadratic expansion, minus the sum of the
  log scales, minus an additive constant), keep the largest component score of each class and
  layer-normalise the 19 class scores.

  They differ in the additive constant only: the kernel subtracts a literal, the reference subtracts
  256 · log of its own literal. Both are real numbers, the constant is the same for all 19 classes of a pixel,
  and the final layer norm starts by centring the class scores — so it cancels, whatever the scores are
  (`Cert.Spec.out_shift`). Everything else is the same arithmetic in another layout: the kernel works on
  blocks of 16 image rows with the channels first and moves them to the last axis for its two table
  products, it keeps the components component-major (column m·19 + k) where the reference keeps them
  class-major (row k·5 + m), and it takes the largest of five slices where the reference reduces an axis.

  The kernel's result array is read off its run block by block (`Cert.KernelIdeal.KValue`), the
  reference's off its operations one at a time (`Cert.RefValue`); both are the specification
  `Cert.Spec.out` at each pixel and class.
-/
import proofs.«172692_j24696061952473_2_alg».proof.Defs
import proofs.«172692_j24696061952473_2_alg».proof.Proof.Gen.Kernel
import proofs.«172692_j24696061952473_2_alg».proof.Proof.Gen.Kernel.Skeleton
import proofs.«172692_j24696061952473_2_alg».proof.Proof.Gen.Kernel.Launch
import proofs.«172692_j24696061952473_2_alg».proof.Proof.Gen.Kernel.Points
import proofs.«172692_j24696061952473_2_alg».proof.Proof.Gen.Kernel.Frame
import proofs.«172692_j24696061952473_2_alg».proof.Proof.Gen.KernelIdeal
import proofs.«172692_j24696061952473_2_alg».proof.Proof.Gen.KernelIdeal.Skeleton
import proofs.«172692_j24696061952473_2_alg».proof.Proof.Gen.KernelIdeal.Launch
import proofs.«172692_j24696061952473_2_alg».proof.Proof.Gen.KernelIdeal.Points
import proofs.«172692_j24696061952473_2_alg».proof.Proof.Gen.KernelIdeal.Frame
import proofs.«172692_j24696061952473_2_alg».proof.Proof.Gen.ReferenceIdeal
import proofs.«172692_j24696061952473_2_alg».proof.Proof.Gen.Pre_finite_inputs
import proofs.«172692_j24696061952473_2_alg».proof.Proof.Gen.ReferenceIdeal.Run
import proofs.«172692_j24696061952473_2_alg».proof.Proof.Gen.ReferenceIdeal.Read
import proofs.«172692_j24696061952473_2_alg».proof.Proof.Spec
import proofs.«172692_j24696061952473_2_alg».proof.Proof.KValue
import proofs.«172692_j24696061952473_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's result and the reference's are the specification with two real additive constants, hence equal. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v95_eq]
  obtain ⟨h0, h1, h2, h3, h4, h5, h6⟩ := hagree c
  rw [h0, h1, h2, h3, h4, h5, h6]
  funext i
  obtain ⟨b, k, h, w, rfl⟩ : ∃ (b : Fin 4) (k : Fin 19) (h w : Fin 128), i = ix4 b k h w := ⟨i 0, i 1, i 2, i 3, eq_ix4 i⟩
  rw [Cert.RefValue.ref_at]
  obtain ⟨rK, hK⟩ := Cert.Consts.shiftK_real
  obtain ⟨rR, hR⟩ := Cert.Consts.shiftR_real
  unfold Cert.KernelIdeal.KValue.G Cert.KernelIdeal.KValue.result
  rw [hR, hK]
  exact congrFun (Cert.Spec.out_shift _ _ _ _ _ _ _ rR rK) k

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
